-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel

variable [Facts]

def fn {F : FTy → Type} [FloatOps F] (main_arg0 : FVec F S16x1024 .f32) (main_arg1 : FVec F S16x1024 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S16x1024 : Shape := ⟨2, ![16, 1024]⟩
abbrev S1024x16 : Shape := ⟨2, ![1024, 16]⟩
abbrev S16x1024x1024 : Shape := ⟨3, ![16, 1024, 1024]⟩
abbrev S32x16 : Shape := ⟨2, ![32, 16]⟩
abbrev S16x32x1024 : Shape := ⟨3, ![16, 32, 1024]⟩
abbrev S16x32 : Shape := ⟨2, ![16, 32]⟩
abbrev S32x1 : Shape := ⟨2, ![32, 1]⟩
abbrev S1x1024 : Shape := ⟨2, ![1, 1024]⟩
abbrev S32x1024 : Shape := ⟨2, ![32, 1024]⟩
abbrev S1x32x1024 : Shape := ⟨3, ![1, 32, 1024]⟩
abbrev S16x1x1024 : Shape := ⟨3, ![16, 1, 1024]⟩
abbrev S16x32x1 : Shape := ⟨3, ![16, 32, 1]⟩

abbrev nBuf : Space → Nat
  | .hbm => 14
  | .vmem => 18
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S1024x16, .f32⟩
  | .hbm, ⟨3, _⟩ => ⟨S1024x16, .f32⟩
  | .hbm, ⟨4, _⟩ => ⟨S1024x16, .f32⟩
  | .hbm, ⟨5, _⟩ => ⟨S1024x16, .f32⟩
  | .hbm, ⟨6, _⟩ => ⟨S16x1024x1024, .f32⟩
  | .hbm, ⟨7, _⟩ => ⟨S16x1024x1024, .f32⟩
  | .hbm, ⟨8, _⟩ => ⟨S1024x16, .f32⟩
  | .hbm, ⟨9, _⟩ => ⟨S1024x16, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | .local _ .vmem, ⟨7, _⟩ => ⟨S32x16, .f32⟩
  | .local _ .vmem, ⟨8, _⟩ => ⟨S32x16, .f32⟩
  | .local _ .vmem, ⟨9, _⟩ => ⟨S32x16, .f32⟩
  | .local _ .vmem, ⟨10, _⟩ => ⟨S16x32x1024, .f32⟩
  | .local _ .vmem, ⟨11, _⟩ => ⟨S16x32x1024, .f32⟩
  | .local _ .vmem, ⟨12, _⟩ => ⟨S16x32x1024, .f32⟩
  | .local _ .vmem, ⟨13, _⟩ => ⟨S16x32x1024, .f32⟩
  | .local _ .vmem, ⟨14, _⟩ => ⟨S32x16, .f32⟩
  | .local _ .vmem, ⟨15, _⟩ => ⟨S32x16, .f32⟩
  | .local _ .vmem, ⟨16, _⟩ => ⟨S32x16, .f32⟩
  | .local _ .vmem, ⟨17, _⟩ => ⟨S32x16, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S16x1024_S1024x16_1_0 : S16x1024.Transposes [1, 0] S1024x16
  inb_S16x1024_S16x1024_0_0 : ∀ a, (![0, 0] : Fin 2 → Nat) a + S16x1024.size a ≤ S16x1024.size a
  h_S16x1024 : 0 < S16x1024.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  transposes_S32x16_p1_0_S16x32 : S32x16.Transposes [1, 0] S16x32
  iota_S32x1_d0_w32 : S32x1.Iotas .tc 32 [0]
  iota_S1x1024_d1_w32 : S1x1024.Iotas .tc 32 [1]
  broadcasts_S32x1_S32x1024 : S32x1.Broadcasts S32x1024
  broadcasts_S1x1024_S32x1024 : S1x1024.Broadcasts S32x1024
  natLt_1_32 : 1 < 32
  shapeCasts_S32x1024_S1x32x1024 : S32x1024.ShapeCasts S1x32x1024
  shapeCasts_S16x1024_S16x1x1024 : S16x1024.ShapeCasts S16x1x1024
  shapeCasts_S16x32_S16x32x1 : S16x32.ShapeCasts S16x32x1
  broadcasts_S16x1x1024_S16x32x1024 : S16x1x1024.Broadcasts S16x32x1024
  broadcasts_S16x32x1_S16x32x1024 : S16x32x1.Broadcasts S16x32x1024
  broadcasts_S1x32x1024_S16x32x1024 : S1x32x1024.Broadcasts S16x32x1024
  reduces_S16x32x1024_S16x32 : S16x32x1024.Reduces [2] S16x32
  inb_S16x32x1024_S16x32x1024_0_0_0 : ∀ a, (![0, 0, 0] : Fin 3 → Nat) a + S16x32x1024.size a ≤ S16x32x1024.size a
  h_S16x32x1024 : 0 < S16x32x1024.numel
  transposes_S16x32_p1_0_S32x16 : S16x32.Transposes [1, 0] S32x16
  transposes_S1024x16_S16x1024_1_0 : S1024x16.Transposes [1, 0] S16x1024
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x1024.size a
  hwx0_0 : ∀ i : grid0.Coords, EltTy.bits .f32 = 32 ∨ (Rect.block (s := S16x1024) S16x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S1024x16.size a
  hwx0_2 : ∀ i : grid0.Coords, EltTy.bits .f32 = 32 ∨ (Rect.block (s := S1024x16) S32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S1024x16.size a
  hwx0_3 : ∀ i : grid0.Coords, EltTy.bits .f32 = 32 ∨ (Rect.block (s := S1024x16) S32x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S1024x16.size a
  hwx0_4 : ∀ i : grid0.Coords, EltTy.bits .f32 = 32 ∨ (Rect.block (s := S1024x16) S32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S1024x16.size a
  hwx0_5 : ∀ i : grid0.Coords, EltTy.bits .f32 = 32 ∨ (Rect.block (s := S1024x16) S32x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x32x1024.size a ≤ S16x1024x1024.size a
  hwx0_6 : ∀ i : grid0.Coords, EltTy.bits .f32 = 32 ∨ (Rect.block (s := S16x1024x1024) S16x32x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x32x1024.size a ≤ S16x1024x1024.size a
  hwx0_7 : ∀ i : grid0.Coords, EltTy.bits .f32 = 32 ∨ (Rect.block (s := S16x1024x1024) S16x32x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x16.size a ≤ S1024x16.size a
  hwx0_8 : ∀ i : grid0.Coords, EltTy.bits .f32 = 32 ∨ (Rect.block (s := S1024x16) S32x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x16.size a ≤ S1024x16.size a
  hwx0_9 : ∀ i : grid0.Coords, EltTy.bits .f32 = 32 ∨ (Rect.block (s := S1024x16) S32x16.size (cc0_transform_9 i) (hinb0_9 i)).WholeWords (EltTy.packing .f32)

variable [Facts₀]

abbrev win0_0 : Pipeline.Window sig grid0 :=
  Pipeline.Window.ofSpec (Memref.whole main_arg0) S16x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S32x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S32x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S16x32x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S16x32x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_4) S32x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_5) S32x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x1024 : Shape := ⟨2, ![16, 1024]⟩
abbrev S1024x1024 : Shape := ⟨2, ![1024, 1024]⟩
abbrev S_ : Shape := ⟨0, ![]⟩
abbrev S16x1x1024 : Shape := ⟨3, ![16, 1, 1024]⟩
abbrev S16x1024x1 : Shape := ⟨3, ![16, 1024, 1]⟩
abbrev S16x1024x1024 : Shape := ⟨3, ![16, 1024, 1024]⟩
abbrev S1x1024x1024 : Shape := ⟨3, ![1, 1024, 1024]⟩

abbrev nBuf : Space → Nat
  | .hbm => 165
  | .vmem => 0
  | .smem => 0
  | _ => 0

abbrev hbmTy0_0 (i : Nat) : BufTy := match i % 128 with
  | 0 => ⟨S16x1024, .f32⟩
  | 1 => ⟨S16x1024, .f32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .i1⟩
  | 8 => ⟨S1024x1024, .f32⟩
  | 9 => ⟨S_, .f32⟩
  | 10 => ⟨S1024x1024, .f32⟩
  | 11 => ⟨S1024x1024, .f32⟩
  | 12 => ⟨S16x1x1024, .f32⟩
  | 13 => ⟨S16x1024x1, .f32⟩
  | 14 => ⟨S16x1024x1024, .f32⟩
  | 15 => ⟨S16x1024x1024, .f32⟩
  | 16 => ⟨S16x1024x1024, .f32⟩
  | 17 => ⟨S1x1024x1024, .f32⟩
  | 18 => ⟨S16x1024x1024, .f32⟩
  | 19 => ⟨S16x1024x1024, .f32⟩
  | 20 => ⟨S16x1x1024, .f32⟩
  | 21 => ⟨S16x1024x1, .f32⟩
  | 22 => ⟨S16x1024x1024, .f32⟩
  | 23 => ⟨S16x1024x1024, .f32⟩
  | 24 => ⟨S16x1024x1024, .f32⟩
  | 25 => ⟨S1x1024x1024, .f32⟩
  | 26 => ⟨S16x1024x1024, .f32⟩
  | 27 => ⟨S16x1024x1024, .f32⟩
  | 28 => ⟨S16x1024x1024, .f32⟩
  | 29 => ⟨S16x1024x1024, .f32⟩
  | 30 => ⟨S16x1024x1024, .f32⟩
  | 31 => ⟨S16x1024x1024, .f32⟩
  | 32 => ⟨S_, .f32⟩
  | 33 => ⟨S16x1024x1024, .f32⟩
  | 34 => ⟨S16x1024x1024, .f32⟩
  | 35 => ⟨S16x1024x1024, .f32⟩
  | 36 => ⟨S16x1024x1024, .f32⟩
  | 37 => ⟨S_, .f32⟩
  | 38 => ⟨S16x1024x1024, .f32⟩
  | 39 => ⟨S16x1024x1024, .i1⟩
  | 40 => ⟨S16x1024x1024, .f32⟩
  | 41 => ⟨S16x1024x1024, .f32⟩
  | 42 => ⟨S16x1024x1024, .f32⟩
  | 43 => ⟨S16x1024x1024, .f32⟩
  | 44 => ⟨S_, .f32⟩
  | 45 => ⟨S16x1024x1024, .f32⟩
  | 46 => ⟨S16x1024x1024, .f32⟩
  | 47 => ⟨S16x1024x1024, .f32⟩
  | 48 => ⟨S16x1024x1024, .f32⟩
  | 49 => ⟨S16x1024x1024, .f32⟩
  | 50 => ⟨S1x1024x1024, .f32⟩
  | 51 => ⟨S16x1024x1024, .f32⟩
  | 52 => ⟨S16x1024x1024, .f32⟩
  | 53 => ⟨S1x1024x1024, .f32⟩
  | 54 => ⟨S16x1024x1024, .f32⟩
  | 55 => ⟨S16x1024x1024, .f32⟩
  | 56 => ⟨S1x1024x1024, .f32⟩
  | 57 => ⟨S16x1024x1024, .f32⟩
  | 58 => ⟨S16x1024x1024, .f32⟩
  | 59 => ⟨S1x1024x1024, .f32⟩
  | 60 => ⟨S16x1024x1024, .f32⟩
  | 61 => ⟨S16x1024x1024, .f32⟩
  | 62 => ⟨S1x1024x1024, .f32⟩
  | 63 => ⟨S16x1024x1024, .f32⟩
  | 64 => ⟨S16x1024x1024, .f32⟩
  | 65 => ⟨S1x1024x1024, .f32⟩
  | 66 => ⟨S16x1024x1024, .f32⟩
  | 67 => ⟨S16x1024x1024, .f32⟩
  | 68 => ⟨S_, .f32⟩
  | 69 => ⟨S16x1024, .f32⟩
  | 70 => ⟨S_, .f32⟩
  | 71 => ⟨S16x1024, .f32⟩
  | 72 => ⟨S_, .f32⟩
  | 73 => ⟨S16x1024, .f32⟩
  | 74 => ⟨S_, .f32⟩
  | 75 => ⟨S16x1024, .f32⟩
  | 76 => ⟨S1x1024x1024, .f32⟩
  | 77 => ⟨S16x1024x1, .f32⟩
  | 78 => ⟨S16x1024x1024, .f32⟩
  | 79 => ⟨S16x1024x1024, .f32⟩
  | 80 => ⟨S16x1024x1024, .f32⟩
  | 81 => ⟨S16x1024x1024, .f32⟩
  | 82 => ⟨S1x1024x1024, .f32⟩
  | 83 => ⟨S16x1024x1, .f32⟩
  | 84 => ⟨S16x1024x1024, .f32⟩
  | 85 => ⟨S16x1024x1024, .f32⟩
  | 86 => ⟨S16x1024x1024, .f32⟩
  | 87 => ⟨S16x1024x1024, .f32⟩
  | 88 => ⟨S_, .f32⟩
  | 89 => ⟨S16x1024, .f32⟩
  | 90 => ⟨S_, .f32⟩
  | 91 => ⟨S16x1024, .f32⟩
  | 92 => ⟨S_, .f32⟩
  | 93 => ⟨S16x1024, .f32⟩
  | 94 => ⟨S16x1024, .f32⟩
  | 95 => ⟨S_, .f32⟩
  | 96 => ⟨S16x1024, .f32⟩
  | 97 => ⟨S16x1024, .f32⟩
  | 98 => ⟨S_, .f32⟩
  | 99 => ⟨S16x1024, .f32⟩
  | 100 => ⟨S16x1024, .f32⟩
  | 101 => ⟨S_, .f32⟩
  | 102 => ⟨S16x1024, .f32⟩
  | 103 => ⟨S16x1024, .f32⟩
  | 104 => ⟨S16x1024, .f32⟩
  | 105 => ⟨S16x1024, .f32⟩
  | 106 => ⟨S_, .f32⟩
  | 107 => ⟨S16x1024, .f32⟩
  | 108 => ⟨S16x1024, .f32⟩
  | 109 => ⟨S16x1024, .f32⟩
  | 110 => ⟨S16x1024, .f32⟩
  | 111 => ⟨S_, .f32⟩
  | 112 => ⟨S16x1024, .f32⟩
  | 113 => ⟨S16x1024, .i1⟩
  | 114 => ⟨S_, .f32⟩
  | 115 => ⟨S16x1024, .f32⟩
  | 116 => ⟨S16x1024, .f32⟩
  | 117 => ⟨S16x1024, .f32⟩
  | 118 => ⟨S_, .f32⟩
  | 119 => ⟨S16x1024, .f32⟩
  | 120 => ⟨S16x1024, .f32⟩
  | 121 => ⟨S16x1024, .f32⟩
  | 122 => ⟨S16x1024, .f32⟩
  | 123 => ⟨S16x1024, .f32⟩
  | 124 => ⟨S_, .f32⟩
  | 125 => ⟨S16x1024, .f32⟩
  | 126 => ⟨S16x1024, .f32⟩
  | 127 => ⟨S16x1024, .f32⟩
  | _ => ⟨S16x1024, .f32⟩

abbrev hbmTy0_1 (i : Nat) : BufTy := match i % 128 with
  | 0 => ⟨S_, .f32⟩
  | 1 => ⟨S16x1024, .f32⟩
  | 2 => ⟨S16x1024, .f32⟩
  | 3 => ⟨S_, .f32⟩
  | 4 => ⟨S16x1024, .f32⟩
  | 5 => ⟨S16x1024, .f32⟩
  | 6 => ⟨S_, .f32⟩
  | 7 => ⟨S16x1024, .f32⟩
  | 8 => ⟨S16x1024, .f32⟩
  | 9 => ⟨S16x1024, .f32⟩
  | 10 => ⟨S16x1024, .f32⟩
  | 11 => ⟨S16x1024x1, .f32⟩
  | 12 => ⟨S16x1024x1024, .f32⟩
  | 13 => ⟨S16x1024x1024, .f32⟩
  | 14 => ⟨S16x1024x1, .f32⟩
  | 15 => ⟨S16x1024x1024, .f32⟩
  | 16 => ⟨S16x1024x1024, .f32⟩
  | 17 => ⟨S16x1024, .f32⟩
  | 18 => ⟨S16x1024, .f32⟩
  | 19 => ⟨S16x1024, .f32⟩
  | 20 => ⟨S16x1024, .f32⟩
  | 21 => ⟨S_, .f32⟩
  | 22 => ⟨S_, .f32⟩
  | 23 => ⟨S_, .f32⟩
  | 24 => ⟨S16x1024, .f32⟩
  | 25 => ⟨S16x1024, .f32⟩
  | 26 => ⟨S_, .f32⟩
  | 27 => ⟨S16x1024, .f32⟩
  | 28 => ⟨S16x1024, .f32⟩
  | 29 => ⟨S_, .f32⟩
  | 30 => ⟨S_, .f32⟩
  | 31 => ⟨S_, .f32⟩
  | 32 => ⟨S16x1024, .f32⟩
  | 33 => ⟨S16x1024, .f32⟩
  | 34 => ⟨S_, .f32⟩
  | 35 => ⟨S16x1024, .f32⟩
  | 36 => ⟨S16x1024, .f32⟩
  | _ => ⟨S16x1024, .f32⟩

abbrev hbmTy (i : Nat) : BufTy := match i / 128 with
  | 0 => hbmTy0_0 i
  | 1 => hbmTy0_1 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_3 : Ref sig .tc := ⟨.hbm, 68, rfl⟩
abbrev main_v61 : Ref sig .tc := ⟨.hbm, 69, rfl⟩
abbrev main_cst_4 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_7 : Ref sig .tc := ⟨.hbm, 88, rfl⟩
abbrev main_v77 : Ref sig .tc := ⟨.hbm, 89, rfl⟩
abbrev main_cst_8 : Ref sig .tc := ⟨.hbm, 90, rfl⟩
abbrev main_v78 : Ref sig .tc := ⟨.hbm, 91, rfl⟩
abbrev main_cst_9 : Ref sig .tc := ⟨.hbm, 92, rfl⟩
abbrev main_v79 : Ref sig .tc := ⟨.hbm, 93, rfl⟩
abbrev main_v80 : Ref sig .tc := ⟨.hbm, 94, rfl⟩
abbrev main_cst_10 : Ref sig .tc := ⟨.hbm, 95, rfl⟩
abbrev main_v81 : Ref sig .tc := ⟨.hbm, 96, rfl⟩
abbrev main_v82 : Ref sig .tc := ⟨.hbm, 97, rfl⟩
abbrev main_cst_11 : Ref sig .tc := ⟨.hbm, 98, rfl⟩
abbrev main_v83 : Ref sig .tc := ⟨.hbm, 99, rfl⟩
abbrev main_v84 : Ref sig .tc := ⟨.hbm, 100, rfl⟩
abbrev main_cst_12 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_13 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_14 : Ref sig .tc := ⟨.hbm, 111, rfl⟩
abbrev main_v93 : Ref sig .tc := ⟨.hbm, 112, rfl⟩
abbrev main_v94 : Ref sig .tc := ⟨.hbm, 113, rfl⟩
abbrev main_cst_15 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_16 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_17 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_18 : Ref sig .tc := ⟨.hbm, 128, rfl⟩
abbrev main_v106 : Ref sig .tc := ⟨.hbm, 129, rfl⟩
abbrev main_v107 : Ref sig .tc := ⟨.hbm, 130, rfl⟩
abbrev main_cst_19 : Ref sig .tc := ⟨.hbm, 131, rfl⟩
abbrev main_v108 : Ref sig .tc := ⟨.hbm, 132, rfl⟩
abbrev main_v109 : Ref sig .tc := ⟨.hbm, 133, rfl⟩
abbrev main_cst_20 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_21 : Ref sig .tc := ⟨.hbm, 149, rfl⟩
abbrev main_cst_22 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_v124 : Ref sig .tc := ⟨.hbm, 156, rfl⟩
abbrev main_cst_23 : Ref sig .tc := ⟨.hbm, 157, rfl⟩
abbrev main_cst_24 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v125 : Ref sig .tc := ⟨.hbm, 164, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S16x1024_S16x1x1024_0_2 : S16x1024.BroadcastsInDim S16x1x1024 (![0, 2] : Fin 2 → Fin S16x1x1024.rank)
  bcast_S16x1024_S16x1024x1_0_1 : S16x1024.BroadcastsInDim S16x1024x1 (![0, 1] : Fin 2 → Fin S16x1024x1.rank)
  bcast_S16x1x1024_S16x1024x1024_0_1_2 : S16x1x1024.BroadcastsInDim S16x1024x1024 (![0, 1, 2] : Fin 3 → Fin S16x1024x1024.rank)
  bcast_S16x1024x1_S16x1024x1024_0_1_2 : S16x1024x1.BroadcastsInDim S16x1024x1024 (![0, 1, 2] : Fin 3 → Fin S16x1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)

variable [Facts₀]

class Facts : Prop extends Facts₀ where

variable [Facts]
-- ==== Proof.Layout.lean ====
/-
  Layout operations of the kernel body read at an index, at the literal shapes the body uses.
  A transpose of a matrix swaps the two coordinates; a shape cast that inserts a unit axis keeps the
  row-major position, so it reads the operand at the remaining coordinates; a broadcast along an axis
  reads the operand's only entry on that axis. The two iotas read a coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Layout

open Idealize.ShloMosaic Idealize.ShloMosaic.ValueIdx

variable {α : Type}

/-- [16,1024] viewed as [16,1,1024]: entry (b,0,j) is entry (b,j). -/
theorem cast_row (x : (⟨2, ![16, 1024]⟩ : Shape).Idx → α)
    (h : (⟨2, ![16, 1024]⟩ : Shape).ShapeCasts ⟨3, ![16, 1, 1024]⟩) (b : Fin 16) (u : Fin 1) (j : Fin 1024) :
    shapeCast ⟨3, ![16, 1, 1024]⟩ x h (ix3 b u j) = x (ix2 b j) :=
  shapeCast_apply x h _ _ (by
    have hu : u.val = 0 := by omega
    rw [Shape.rowMajor_val_three, Shape.rowMajor_val_two]
    show b.val * 1024 + j.val = (b.val * 1 + u.val) * 1024 + j.val
    rw [hu]; omega)

/-- [16,32] viewed as [16,32,1]: entry (b,r,0) is entry (b,r). -/
theorem cast_col (x : (⟨2, ![16, 32]⟩ : Shape).Idx → α)
    (h : (⟨2, ![16, 32]⟩ : Shape).ShapeCasts ⟨3, ![16, 32, 1]⟩) (b : Fin 16) (r : Fin 32) (u : Fin 1) :
    shapeCast ⟨3, ![16, 32, 1]⟩ x h (ix3 b r u) = x (ix2 b r) :=
  shapeCast_apply x h _ _ (by
    have hu : u.val = 0 := by omega
    rw [Shape.rowMajor_val_three, Shape.rowMajor_val_two]
    show b.val * 32 + r.val = (b.val * 32 + r.val) * 1 + u.val
    rw [hu]; omega)

/-- [16,1,1024] broadcast to [16,32,1024]: every row r reads row 0. -/
theorem bcast_row (x : (⟨3, ![16, 1, 1024]⟩ : Shape).Idx → α)
    (h : (⟨3, ![16, 1, 1024]⟩ : Shape).Broadcasts ⟨3, ![16, 32, 1024]⟩) (b : Fin 16) (r : Fin 32) (j : Fin 1024) :
    broadcastTo ⟨3, ![16, 32, 1024]⟩ x h (ix3 b r j) = x (ix3 b (0 : Fin 1) j) := by
  refine broadcastTo_apply x h (ix3 b r j) (ix3 b (0 : Fin 1) j) fun ax => ?_
  match ax with
  | ⟨0, _⟩ => show b.val = if (16 : Nat) = 1 then 0 else b.val; rw [if_neg (by decide)]
  | ⟨1, _⟩ => show 0 = if (1 : Nat) = 1 then 0 else r.val; rw [if_pos rfl]
  | ⟨2, _⟩ => show j.val = if (1024 : Nat) = 1 then 0 else j.val; rw [if_neg (by decide)]

/-- [16,32,1] broadcast to [16,32,1024]: every column j reads column 0. -/
theorem bcast_col (x : (⟨3, ![16, 32, 1]⟩ : Shape).Idx → α)
    (h : (⟨3, ![16, 32, 1]⟩ : Shape).Broadcasts ⟨3, ![16, 32, 1024]⟩) (b : Fin 16) (r : Fin 32) (j : Fin 1024) :
    broadcastTo ⟨3, ![16, 32, 1024]⟩ x h (ix3 b r j) = x (ix3 b r (0 : Fin 1)) := by
  refine broadcastTo_apply x h (ix3 b r j) (ix3 b r (0 : Fin 1)) fun ax => ?_
  match ax with
  | ⟨0, _⟩ => show b.val = if (16 : Nat) = 1 then 0 else b.val; rw [if_neg (by decide)]
  | ⟨1, _⟩ => show r.val = if (32 : Nat) = 1 then 0 else r.val; rw [if_neg (by decide)]
  | ⟨2, _⟩ => show 0 = if (1 : Nat) = 1 then 0 else j.val; rw [if_pos rfl]

/-- [1,32,1024] broadcast to [16,32,1024]: every batch b reads batch 0. -/
theorem bcast_batch (x : (⟨3, ![1, 32, 1024]⟩ : Shape).Idx → α)
    (h : (⟨3, ![1, 32, 1024]⟩ : Shape).Broadcasts ⟨3, ![16, 32, 1024]⟩) (b : Fin 16) (r : Fin 32) (j : Fin 1024) :
    broadcastTo ⟨3, ![16, 32, 1024]⟩ x h (ix3 b r j) = x (ix3 (0 : Fin 1) r j) := by
  refine broadcastTo_apply x h (ix3 b r j) (ix3 (0 : Fin 1) r j) fun ax => ?_
  match ax with
  | ⟨0, _⟩ => show 0 = if (1 : Nat) = 1 then 0 else b.val; rw [if_pos rfl]
  | ⟨1, _⟩ => show r.val = if (32 : Nat) = 1 then 0 else r.val; rw [if_neg (by decide)]
  | ⟨2, _⟩ => show j.val = if (1024 : Nat) = 1 then 0 else j.val; rw [if_neg (by decide)]

/-- [32,1] broadcast to [32,1024]: column j reads column 0. -/
theorem bcast_col2 (x : (⟨2, ![32, 1]⟩ : Shape).Idx → α)
    (h : (⟨2, ![32, 1]⟩ : Shape).Broadcasts ⟨2, ![32, 1024]⟩) (r : Fin 32) (j : Fin 1024) :
    broadcastTo ⟨2, ![32, 1024]⟩ x h (ix2 r j) = x (ix2 r (0 : Fin 1)) := by
  refine broadcastTo_apply x h (ix2 r j) (ix2 r (0 : Fin 1)) fun ax => ?_
  match ax with
  | ⟨0, _⟩ => show r.val = if (32 : Nat) = 1 then 0 else r.val; rw [if_neg (by decide)]
  | ⟨1, _⟩ => show 0 = if (1 : Nat) = 1 then 0 else j.val; rw [if_pos rfl]

/-- A [32,16] block transposed to [16,32]: entry (b, r) is the operand's (r, b). -/
theorem tr_block (x : (⟨2, ![32, 16]⟩ : Shape).Idx → α)
    (h : (⟨2, ![32, 16]⟩ : Shape).Transposes [1, 0] ⟨2, ![16, 32]⟩) (b : Fin 16) (r : Fin 32) :
    transpose ⟨2, ![16, 32]⟩ [1, 0] x h (ix2 b r) = x (ix2 r b) :=
  transpose_ix2_apply x h b r

/-- A [16,32] value transposed to [32,16]: entry (r, b) is the operand's (b, r). -/
theorem tr_back (x : (⟨2, ![16, 32]⟩ : Shape).Idx → α)
    (h : (⟨2, ![16, 32]⟩ : Shape).Transposes [1, 0] ⟨2, ![32, 16]⟩) (r : Fin 32) (b : Fin 16) :
    transpose ⟨2, ![32, 16]⟩ [1, 0] x h (ix2 r b) = x (ix2 b r) :=
  transpose_ix2_apply x h r b

/-- A [1024,16] array transposed to [16,1024]: entry (b, g) is the operand's (g, b). -/
theorem tr_host (x : (⟨2, ![1024, 16]⟩ : Shape).Idx → α)
    (h : (⟨2, ![1024, 16]⟩ : Shape).Transposes [1, 0] ⟨2, ![16, 1024]⟩) (b : Fin 16) (g : Fin 1024) :
    transpose ⟨2, ![16, 1024]⟩ [1, 0] x h (ix2 b g) = x (ix2 g b) :=
  transpose_ix2_apply x h b g

/-- A [16,1024] array transposed to [1024,16]: entry (g, b) is the operand's (b, g). -/
theorem tr_host' (x : (⟨2, ![16, 1024]⟩ : Shape).Idx → α)
    (h : (⟨2, ![16, 1024]⟩ : Shape).Transposes [1, 0] ⟨2, ![1024, 16]⟩) (g : Fin 1024) (b : Fin 16) :
    transpose ⟨2, ![1024, 16]⟩ [1, 0] x h (ix2 g b) = x (ix2 b g) :=
  transpose_ix2_apply x h g b

end Cert.Bridge.Layout

end
-- ==== Proof.Mask.lean ====
/-
  The two masks. The kernel builds, at grid point t, for block row r and column j, the word
  (row ≠ column) of the 32-bit integers 32·t + r and j, widened and converted to a float: it is 0 on the
  diagonal and 1 off it; one minus it is the diagonal's indicator. The reference builds the diagonal's
  indicator first (row = column of two iotas, converted) and takes one minus it. Both pairs are the same
  two functions of the global row 32·t + r and the column.
-/
import Idealize.ShloMosaic.PureOps.Ideal.Laws
import Idealize.ShloMosaic.Lib.ValueIdx

noncomputable section

namespace Cert.Bridge

open Idealize.ShloMosaic

/-- 1.0 denotes the real one. -/
theorem ofBits_one : Ideal.ofBits .f32 0x3F800000#32 = 1 := by
  simp [Ideal.ofBits, Ideal.ieee, -EReal.coe_mul]; norm_num

/-- Off-diagonal indicator: 0 where row = column, 1 elsewhere. -/
def odv (a j : ℕ) : EReal := if a = j then 0 else 1
/-- Diagonal indicator. -/
def dgv (a j : ℕ) : EReal := if a = j then 1 else 0

theorem one_sub_odv (a j : ℕ) : Ideal.ofBits .f32 0x3F800000#32 - odv a j = dgv a j := by
  rw [ofBits_one]; unfold odv dgv
  split
  · exact sub_zero _
  · rw [show (1 : EReal) = ((1 : ℝ) : EReal) from rfl, ← EReal.coe_sub, sub_self]; rfl

theorem one_sub_dgv (a j : ℕ) : Ideal.ofBits .f32 0x3F800000#32 - dgv a j = odv a j := by
  rw [ofBits_one]; unfold odv dgv
  split
  · rw [show (1 : EReal) = ((1 : ℝ) : EReal) from rfl, ← EReal.coe_sub, sub_self]; rfl
  · exact sub_zero _

theorem ofNat32_inj {a j : ℕ} (ha : a < 4294967296) (hj : j < 4294967296) :
    BitVec.ofNat 32 a = BitVec.ofNat 32 j ↔ a = j := by
  constructor
  · intro h
    have := congrArg BitVec.toNat h
    simp only [BitVec.toNat_ofNat] at this
    omega
  · intro h; rw [h]

/-- The kernel's row word: 32·t + r computed in 32-bit integers does not wrap. -/
theorem row_word (t r : ℕ) (ht : t < 32) (hr : r < 32) :
    IntOp.addi (Scalar.muli (BitVec.ofNat 32 t) 32#32) (BitVec.ofNat 32 r) = BitVec.ofNat 32 (32 * t + r) := by
  apply BitVec.eq_of_toNat_eq
  show ((BitVec.ofNat 32 t) * 32#32 + BitVec.ofNat 32 r).toNat = _
  simp only [BitVec.toNat_add, BitVec.toNat_mul, BitVec.toNat_ofNat]
  omega

/-- The kernel's off-diagonal word, converted. -/
theorem sitofp_ne (a j : ℕ) (ha : a < 4294967296) (hj : j < 4294967296) :
    FloatOps.sitofp (F := Ideal) .f32 ((IntOp.cmpi .ne (BitVec.ofNat 32 a) (BitVec.ofNat 32 j)).setWidth 32) = odv a j := by
  show (((((IntOp.cmpi .ne (BitVec.ofNat 32 a) (BitVec.ofNat 32 j)).setWidth 32).toInt : ℤ) : ℝ) : EReal) = _
  unfold odv IntOp.cmpi
  by_cases h : a = j
  · subst h; simp
  · have hne : BitVec.ofNat 32 a ≠ BitVec.ofNat 32 j := fun e => h ((ofNat32_inj ha hj).mp e)
    rw [if_neg h]
    have : (BitVec.ofNat 32 a != BitVec.ofNat 32 j) = true := by simpa using hne
    simp only [this]
    have e : ((BitVec.ofBool true).setWidth 32).toInt = 1 := by decide
    rw [e]; simp

/-- The reference's diagonal word, converted. -/
theorem uitofp_eq (a j : ℕ) (ha : a < 4294967296) (hj : j < 4294967296) :
    FloatOps.uitofp (F := Ideal) .f32 (IntOp.cmpi .eq (IntOp.addi (BitVec.ofNat 32 a) 0#32) (BitVec.ofNat 32 j)) = dgv a j := by
  show ((((IntOp.cmpi .eq (IntOp.addi (BitVec.ofNat 32 a) 0#32) (BitVec.ofNat 32 j)).toNat : ℕ) : ℝ) : EReal) = _
  unfold dgv IntOp.cmpi IntOp.addi
  rw [BitVec.add_zero]
  by_cases h : a = j
  · subst h; simp
  · have hne : BitVec.ofNat 32 a ≠ BitVec.ofNat 32 j := fun e => h ((ofNat32_inj ha hj).mp e)
    rw [if_neg h]
    have : (BitVec.ofNat 32 a == BitVec.ofNat 32 j) = false := by simpa using hne
    simp only [this]
    simp

end Cert.Bridge

end
-- ==== Proof.Leaves.lean ====
/-
  The pairwise differences at an index. At grid point t the kernel's block row r is the global row
  g = 32·t + r. The kernel reads l(b, j) from the whole first argument and u(b, g) from row r of the
  transposed second argument's block, and masks the difference by the off-diagonal indicator of (g, j);
  the reference reads the same two entries through its broadcasts and masks by the same indicator.
-/
import proofs.«118019_j59949153518086_2_alg».proof.Proof.Layout
import proofs.«118019_j59949153518086_2_alg».proof.Proof.Mask
import proofs.«118019_j59949153518086_2_alg».proof.Proof.Gen.KernelIdeal.Skeleton
import proofs.«118019_j59949153518086_2_alg».proof.Proof.Gen.ReferenceIdeal.Read

noncomputable section

namespace Cert.Bridge

open Idealize.ShloMosaic Idealize.ShloMosaic.ValueIdx
open Cert.KernelIdeal Cert.KernelIdeal.Gen
open Cert.Bridge.Layout
open Cert.ReferenceIdeal.Read

/-- The global row of block row r at grid point t. -/
def grow (t r : Fin 32) : Fin 1024 := ⟨32 * t.val + r.val, by omega⟩

theorem grow_val (t r : Fin 32) : (grow t r).val = 32 * t.val + r.val := rfl

/-! ## The reference's masks -/

theorem ref_v5 (g j : Fin 1024) : val_main_v5 (F := Ideal) (ix2 g j) = dgv g.val j.val := by
  rw [val_main_v5_apply (F := Ideal), val_main_v4_apply (F := Ideal), val_main_v3_apply (F := Ideal), val_main_v2_apply (F := Ideal)]
  exact uitofp_eq g.val j.val (by omega) (by omega)

theorem ref_v7 (g j : Fin 1024) : val_main_v7 (F := Ideal) (ix2 g j) = odv g.val j.val := by
  rw [val_main_v7_apply (F := Ideal), val_main_v6_apply (F := Ideal), ref_v5]
  exact one_sub_dgv _ _

/-! ## The kernel's masks -/

theorem pay4_at (i : grid0.Coords) (t : Fin 32) (hi : (i 0).val = t.val) (r : Fin 32) (j : Fin 1024) :
    k0_pay4 (F := Ideal) i (ix2 r j) = odv (grow t r).val j.val := by
  simp only [k0_pay4, sitofp, extui, cmpi, addi, broadcast, bcast_col2, broadcastTo_1b_ab_apply, iota_single_apply]
  rw [iota_single_apply, iota_single_apply]
  show FloatOps.sitofp (F := Ideal) .f32 ((IntOp.cmpi .ne (IntOp.addi (Scalar.muli (BitVec.ofNat 32 (i 0).val) 32#32) (BitVec.ofNat 32 r.val)) (BitVec.ofNat 32 j.val)).setWidth 32) = _
  rw [hi, row_word t.val r.val t.isLt r.isLt]
  exact sitofp_ne _ _ (by omega) (by omega)

theorem pay5_at (i : grid0.Coords) (t : Fin 32) (hi : (i 0).val = t.val) (z : Fin 1) (r : Fin 32) (j : Fin 1024) :
    k0_pay5 (F := Ideal) i (ix3 z r j) = odv (grow t r).val j.val := by
  simp only [k0_pay5, shapeCast_ab_1ab_apply]
  exact pay4_at i t hi r j

theorem pay6_at (i : grid0.Coords) (t : Fin 32) (hi : (i 0).val = t.val) (z : Fin 1) (r : Fin 32) (j : Fin 1024) :
    k0_pay6 (F := Ideal) i (ix3 z r j) = dgv (grow t r).val j.val := by
  simp only [k0_pay6, shapeCast_ab_1ab_apply, subf, broadcast, pay4_at i t hi r j]
  exact one_sub_odv _ _

/-! ## The masked differences, the reference's and the kernel's -/

section
variable (l u : FVec Ideal S16x1024 .f32)

/-- The reference's lower difference at (b, g, j): (l(b,j) − u(b,g)) masked. -/
theorem ref_v15 (b : Fin 16) (g j : Fin 1024) :
    val_main_v15 (F := Ideal) l u (ix3 b g j) = (l (ix2 b j) - u (ix2 b g)) * odv g.val j.val := by
  rw [val_main_v15_apply (F := Ideal), val_main_v12_apply (F := Ideal), val_main_v10_apply (F := Ideal), val_main_v8_apply (F := Ideal),
    val_main_v11_apply (F := Ideal), val_main_v9_apply (F := Ideal), val_main_v14_apply (F := Ideal), val_main_v13_apply (F := Ideal)]
  have e1 : idx_main_v8 (idx_main_v10 (ix3 b g j)) = ix2 b j := funext fun a => Fin.ext (by match a with | ⟨0, _⟩ => rfl | ⟨1, _⟩ => rfl)
  have e2 : idx_main_v9 (idx_main_v11 (ix3 b g j)) = ix2 b g := funext fun a => Fin.ext (by match a with | ⟨0, _⟩ => rfl | ⟨1, _⟩ => rfl)
  have e3 : idx_main_v13 (idx_main_v14 (ix3 b g j)) = ix2 g j := funext fun a => Fin.ext (by match a with | ⟨0, _⟩ => rfl | ⟨1, _⟩ => rfl)
  rw [e1, e2, e3, ref_v7]; rfl

/-- The reference's upper difference at (b, g, j): (u(b,j) − l(b,g)) masked. -/
theorem ref_v23 (b : Fin 16) (g j : Fin 1024) :
    val_main_v23 (F := Ideal) l u (ix3 b g j) = (u (ix2 b j) - l (ix2 b g)) * odv g.val j.val := by
  rw [val_main_v23_apply (F := Ideal), val_main_v20_apply (F := Ideal), val_main_v18_apply (F := Ideal), val_main_v16_apply (F := Ideal),
    val_main_v19_apply (F := Ideal), val_main_v17_apply (F := Ideal), val_main_v22_apply (F := Ideal), val_main_v21_apply (F := Ideal)]
  have e1 : idx_main_v16 (idx_main_v18 (ix3 b g j)) = ix2 b j := funext fun a => Fin.ext (by match a with | ⟨0, _⟩ => rfl | ⟨1, _⟩ => rfl)
  have e2 : idx_main_v17 (idx_main_v19 (ix3 b g j)) = ix2 b g := funext fun a => Fin.ext (by match a with | ⟨0, _⟩ => rfl | ⟨1, _⟩ => rfl)
  have e3 : idx_main_v21 (idx_main_v22 (ix3 b g j)) = ix2 g j := funext fun a => Fin.ext (by match a with | ⟨0, _⟩ => rfl | ⟨1, _⟩ => rfl)
  rw [e1, e2, e3, ref_v7]; rfl

variable (x2 x3 : FVec Ideal S32x16 .f32) (i : grid0.Coords) (t : Fin 32)
variable (hi : (i 0).val = t.val)
variable (h2 : ∀ (r : Fin 32) (b : Fin 16), x2 (ix2 r b) = l (ix2 b (grow t r)))
variable (h3 : ∀ (r : Fin 32) (b : Fin 16), x3 (ix2 r b) = u (ix2 b (grow t r)))

include hi h3 in
theorem pay7_at (b : Fin 16) (r : Fin 32) (j : Fin 1024) :
    k0_pay7 (F := Ideal) i l x3 (ix3 b r j) = (l (ix2 b j) - u (ix2 b (grow t r))) * odv (grow t r).val j.val := by
  simp only [k0_pay7, mulf, subf, bcast_row, cast_row, bcast_col, cast_col, tr_block, shapeCast_self, bcast_batch,
    pay5_at i t hi]
  rw [tr_block, h3]
  rfl

include hi h2 in
theorem pay8_at (b : Fin 16) (r : Fin 32) (j : Fin 1024) :
    k0_pay8 (F := Ideal) i u x2 (ix3 b r j) = (u (ix2 b j) - l (ix2 b (grow t r))) * odv (grow t r).val j.val := by
  simp only [k0_pay8, mulf, subf, bcast_row, cast_row, bcast_col, cast_col, tr_block, shapeCast_self, bcast_batch,
    pay5_at i t hi]
  rw [tr_block, h2]
  rfl

include hi h3 in
/-- The kernel's lower difference at block index (b, r, j) is the reference's at (b, 32t + r, j). -/
theorem K7 (b : Fin 16) (r : Fin 32) (j : Fin 1024) :
    k0_pay7 (F := Ideal) i l x3 (ix3 b r j) = val_main_v15 (F := Ideal) l u (ix3 b (grow t r) j) :=
  (pay7_at l u x3 i t hi h3 b r j).trans (ref_v15 l u b (grow t r) j).symm

include hi h2 in
theorem K8 (b : Fin 16) (r : Fin 32) (j : Fin 1024) :
    k0_pay8 (F := Ideal) i u x2 (ix3 b r j) = val_main_v23 (F := Ideal) l u (ix3 b (grow t r) j) :=
  (pay8_at l u x2 i t hi h2 b r j).trans (ref_v23 l u b (grow t r) j).symm

include hi h3 in
theorem K9 (b : Fin 16) (r : Fin 32) (j : Fin 1024) :
    k0_pay9 (F := Ideal) i l x3 (ix3 b r j) = val_main_v24 (F := Ideal) l u (ix3 b (grow t r) j) := by
  rw [val_main_v24_apply (F := Ideal), ← K7 l u x3 i t hi h3 b r j]; rfl

include hi h2 in
theorem K11 (b : Fin 16) (r : Fin 32) (j : Fin 1024) :
    k0_pay11 (F := Ideal) i u x2 (ix3 b r j) = val_main_v25 (F := Ideal) l u (ix3 b (grow t r) j) := by
  rw [val_main_v25_apply (F := Ideal), ← K8 l u x2 i t hi h2 b r j]; rfl

include hi h2 h3 in
theorem K13 (b : Fin 16) (r : Fin 32) (j : Fin 1024) :
    k0_pay13 (F := Ideal) i l u x2 x3 (ix3 b r j) = val_main_v26 (F := Ideal) l u (ix3 b (grow t r) j) := by
  rw [val_main_v26_apply (F := Ideal), ← K8 l u x2 i t hi h2 b r j, ← K7 l u x3 i t hi h3 b r j]; rfl

include hi h2 h3 in
theorem K14 (b : Fin 16) (r : Fin 32) (j : Fin 1024) :
    k0_pay14 (F := Ideal) i l u x2 x3 (ix3 b r j) = val_main_v27 (F := Ideal) l u (ix3 b (grow t r) j) := by
  rw [val_main_v27_apply (F := Ideal), ← K11 l u x2 i t hi h2 b r j, ← K9 l u x3 i t hi h3 b r j]; rfl

end

end Cert.Bridge

end
-- ==== Proof.Sums.lean ====
/-
  Row sums. The kernel sums its masked [16,32,1024] block along the last axis into an exact zero;
  the reference sums the whole [16,1024,1024] array along the last axis from its zero constant. At
  block row r of grid point t both are the sum over the column j of the same summands.
-/
import proofs.«118019_j59949153518086_2_alg».proof.Proof.Leaves

noncomputable section

namespace Cert.Bridge

open Idealize.ShloMosaic Idealize.ShloMosaic.ValueIdx
open Cert.KernelIdeal Cert.KernelIdeal.Gen
open Cert.Bridge.Layout
open Cert.ReferenceIdeal.Read

/-! ## Pointwise operations at an index -/

section Pointwise
variable {F : FTy → Type} [FloatOps F] {s : Shape} {φ : FTy}
theorem pw_mulf (a b : FVec F s φ) (i : s.Idx) : mulf a b i = FloatOps.mulf (a i) (b i) := rfl
theorem pw_addf (a b : FVec F s φ) (i : s.Idx) : addf a b i = FloatOps.addf (a i) (b i) := rfl
theorem pw_subf (a b : FVec F s φ) (i : s.Idx) : subf a b i = FloatOps.subf (a i) (b i) := rfl
theorem pw_divf (a b : FVec F s φ) (i : s.Idx) : divf a b i = FloatOps.divf (a i) (b i) := rfl
theorem pw_exp (a : FVec F s φ) (i : s.Idx) : exp a i = FloatOps.exp (a i) := rfl
theorem pw_absf (a : FVec F s φ) (i : s.Idx) : absf a i = FloatOps.absf (a i) := rfl
theorem pw_maximumf (a b : FVec F s φ) (i : s.Idx) : maximumf a b i = FloatOps.maximumf (a i) (b i) := rfl
theorem pw_minimumf (a b : FVec F s φ) (i : s.Idx) : minimumf a b i = FloatOps.minimumf (a i) (b i) := rfl
theorem pw_select {α : Type} (c : IVec s 1) (a b : s.Idx → α) (i : s.Idx) : select c a b i = Scalar.select (c i) (a i) (b i) := rfl
theorem pw_cmpf (p : CmpFPredicate) (a b : FVec F s φ) (i : s.Idx) : cmpf p a b i = FloatOps.cmpf p (a i) (b i) := rfl
theorem pw_broadcast {α : Type} (x : α) (i : s.Idx) : broadcast s x i = x := rfl
end Pointwise

/-- One rewriting pass for a stage: pointwise operations and layout operations read at an index, the float
    operations at the ideal instance as operations on the extended reals, and the given equations. -/
syntax "stage" "[" Lean.Parser.Tactic.simpLemma,* "]" : tactic
macro_rules
  | `(tactic| stage [$ls,*]) => `(tactic| simp only [pw_mulf, pw_addf, pw_subf, pw_divf, pw_exp, pw_absf, pw_maximumf,
      pw_minimumf, pw_select, pw_cmpf, pw_broadcast, bcast_row, bcast_col, bcast_batch, cast_row, cast_col, shapeCast_self,
      Ideal.addf_def, Ideal.subf_def, Ideal.mulf_def, Ideal.divf_def, Ideal.hostDivf_def, Ideal.exp_def,
      Ideal.hostUnary_exp_def, Ideal.hostAbsf_def, Ideal.maximumf_def, Ideal.minimumf_def, Ideal.ofBits_def, $ls,*])

/-- A lane sum of a [16,32,1024] value into [16,32], on an exact zero: the sum over the last coordinate. -/
theorem red_sum (src : FVec Ideal S16x32x1024 .f32) (h : S16x32x1024.Reduces [2] S16x32) (hφ : FKind.Formats .f32)
    (hacc : (0x00000000#32 : BitVec (FTy.bits .f32)) = FKind.add.neutral .f32 hφ) (b : Fin 16) (r : Fin 32) :
    multiReduction .add [2] S16x32 src 0x00000000#32 h hφ hacc (ix2 b r) = ∑ k : Fin 1024, src (ix3 b r k) := by
  refine (Ideal.multiReduction_add_single src 0x00000000#32 h hφ hacc (ix2 b r)).trans ?_
  refine Finset.sum_congr rfl fun k _ => congrArg src (funext fun a => Fin.ext ?_)
  match a with
  | ⟨0, _⟩ => rfl
  | ⟨1, _⟩ => rfl
  | ⟨2, _⟩ => rfl

/-- The reference's zero constant plus a sum is the sum. -/
theorem zero_word_add (x : EReal) : Ideal.ofBits .f32 0x00000000#32 + x = x := by
  rw [Ideal.ofBits_zero_f32, zero_add]

section
variable (l u : FVec Ideal S16x1024 .f32)
variable (x2 x3 : FVec Ideal S32x16 .f32) (i : grid0.Coords) (t : Fin 32)
variable (hi : (i 0).val = t.val)
variable (h2 : ∀ (r : Fin 32) (b : Fin 16), x2 (ix2 r b) = l (ix2 b (grow t r)))
variable (h3 : ∀ (r : Fin 32) (b : Fin 16), x3 (ix2 r b) = u (ix2 b (grow t r)))

include hi h3 in
/-- S_l: the kernel's row sum of exp(l_d)·mask is the reference's. -/
theorem K10 (b : Fin 16) (r : Fin 32) :
    k0_pay10 (F := Ideal) i l x3 (ix2 b r) = val_main_v61 (F := Ideal) l u (ix2 b (grow t r)) := by
  rw [val_main_v61_apply, val_main_cst_3_apply (F := Ideal)]
  refine Eq.trans ?_ (zero_word_add _).symm
  unfold k0_pay10
  refine (red_sum _ _ _ _ b r).trans (Finset.sum_congr rfl fun k _ => ?_)
  have e : idx_main_v61 (ix2 b (grow t r)) k = ix3 b (grow t r) k :=
    funext fun a => Fin.ext (by match a with | ⟨0, _⟩ => rfl | ⟨1, _⟩ => rfl | ⟨2, _⟩ => rfl)
  rw [e, val_main_v57_apply (F := Ideal), val_main_v56_apply (F := Ideal), val_main_v55_apply (F := Ideal),
    ← K9 l u x3 i t hi h3 b r k]
  have e' : idx_main_v55 (idx_main_v56 (ix3 b (grow t r) k)) = ix2 (grow t r) k :=
    funext fun a => Fin.ext (by match a with | ⟨0, _⟩ => rfl | ⟨1, _⟩ => rfl)
  rw [e', ref_v7]
  simp only [mulf, bcast_batch, pay5_at i t hi]

include hi h2 in
/-- S_u likewise. -/
theorem K12 (b : Fin 16) (r : Fin 32) :
    k0_pay12 (F := Ideal) i u x2 (ix2 b r) = val_main_v62 (F := Ideal) l u (ix2 b (grow t r)) := by
  rw [val_main_v62_apply, val_main_cst_4_apply (F := Ideal)]
  refine Eq.trans ?_ (zero_word_add _).symm
  unfold k0_pay12
  refine (red_sum _ _ _ _ b r).trans (Finset.sum_congr rfl fun k _ => ?_)
  have e : idx_main_v62 (ix2 b (grow t r)) k = ix3 b (grow t r) k :=
    funext fun a => Fin.ext (by match a with | ⟨0, _⟩ => rfl | ⟨1, _⟩ => rfl | ⟨2, _⟩ => rfl)
  rw [e, val_main_v60_apply (F := Ideal), val_main_v59_apply (F := Ideal), val_main_v58_apply (F := Ideal),
    ← K11 l u x2 i t hi h2 b r k]
  have e' : idx_main_v58 (idx_main_v59 (ix3 b (grow t r) k)) = ix2 (grow t r) k :=
    funext fun a => Fin.ext (by match a with | ⟨0, _⟩ => rfl | ⟨1, _⟩ => rfl)
  rw [e', ref_v7]
  simp only [mulf, bcast_batch, pay5_at i t hi]

end

end Cert.Bridge

end
-- ==== Proof.Part2.lean ====
/-
  The secant and tangent coefficients. With the masked differences, their exponentials and the two row
  sums identified, every later value of the kernel's block is the same operation of the same earlier
  values as the reference's, entry by entry; a row sum is the sum over the column of identified summands.
-/
import proofs.«118019_j59949153518086_2_alg».proof.Proof.Sums

noncomputable section

namespace Cert.Bridge

open Idealize.ShloMosaic Idealize.ShloMosaic.ValueIdx
open Cert.KernelIdeal Cert.KernelIdeal.Gen
open Cert.Bridge.Layout
open Cert.ReferenceIdeal.Read

/-- The lane sum as the body spells it: its accumulator word is the literal zero. -/
theorem red_sum' (src : FVec Ideal S16x32x1024 .f32) (h : S16x32x1024.Reduces [2] S16x32)
    (hφ : FKind.Formats .f32) (hacc : (0x00000000#32 : BitVec 32) = 0x00000000#32) (b : Fin 16) (r : Fin 32) :
    multiReduction .add [2] S16x32 src 0x00000000#32 h hφ hacc (ix2 b r) = ∑ k : Fin 1024, src (ix3 b r k) :=
  red_sum src h hφ hacc b r

/-! ## The reference's broadcasts of the masks, of a row value along the columns, and its sums' indices -/

theorem ref_mask_v44 (b : Fin 16) (g j : Fin 1024) : val_main_v44 (F := Ideal) (ix3 b g j) = odv g.val j.val := by
  have e : idx_main_v43 (idx_main_v44 (ix3 b g j)) = ix2 g j := funext fun a => Fin.ext (by match a with | ⟨0, _⟩ => rfl | ⟨1, _⟩ => rfl)
  rw [val_main_v44_apply (F := Ideal), val_main_v43_apply (F := Ideal), e, ref_v7]

theorem ref_mask_v47 (b : Fin 16) (g j : Fin 1024) : val_main_v47 (F := Ideal) (ix3 b g j) = odv g.val j.val := by
  have e : idx_main_v46 (idx_main_v47 (ix3 b g j)) = ix2 g j := funext fun a => Fin.ext (by match a with | ⟨0, _⟩ => rfl | ⟨1, _⟩ => rfl)
  rw [val_main_v47_apply (F := Ideal), val_main_v46_apply (F := Ideal), e, ref_v7]

theorem ref_mask_v50 (b : Fin 16) (g j : Fin 1024) : val_main_v50 (F := Ideal) (ix3 b g j) = odv g.val j.val := by
  have e : idx_main_v49 (idx_main_v50 (ix3 b g j)) = ix2 g j := funext fun a => Fin.ext (by match a with | ⟨0, _⟩ => rfl | ⟨1, _⟩ => rfl)
  rw [val_main_v50_apply (F := Ideal), val_main_v49_apply (F := Ideal), e, ref_v7]

theorem ref_mask_v53 (b : Fin 16) (g j : Fin 1024) : val_main_v53 (F := Ideal) (ix3 b g j) = odv g.val j.val := by
  have e : idx_main_v52 (idx_main_v53 (ix3 b g j)) = ix2 g j := funext fun a => Fin.ext (by match a with | ⟨0, _⟩ => rfl | ⟨1, _⟩ => rfl)
  rw [val_main_v53_apply (F := Ideal), val_main_v52_apply (F := Ideal), e, ref_v7]

theorem ref_mask_v67 (b : Fin 16) (g j : Fin 1024) : val_main_v67 (F := Ideal) (ix3 b g j) = dgv g.val j.val := by
  have e : idx_main_v65 (idx_main_v67 (ix3 b g j)) = ix2 g j := funext fun a => Fin.ext (by match a with | ⟨0, _⟩ => rfl | ⟨1, _⟩ => rfl)
  rw [val_main_v67_apply (F := Ideal), val_main_v65_apply (F := Ideal), e, ref_v5]

theorem ref_mask_v73 (b : Fin 16) (g j : Fin 1024) : val_main_v73 (F := Ideal) (ix3 b g j) = dgv g.val j.val := by
  have e : idx_main_v71 (idx_main_v73 (ix3 b g j)) = ix2 g j := funext fun a => Fin.ext (by match a with | ⟨0, _⟩ => rfl | ⟨1, _⟩ => rfl)
  rw [val_main_v73_apply (F := Ideal), val_main_v71_apply (F := Ideal), e, ref_v5]

theorem ref_col_v68 (l u : FVec Ideal S16x1024 .f32) (b : Fin 16) (g j : Fin 1024) :
    val_main_v68 (F := Ideal) l u (ix3 b g j) = val_main_v63 (F := Ideal) l u (ix2 b g) := by
  have e : idx_main_v66 (idx_main_v68 (ix3 b g j)) = ix2 b g := funext fun a => Fin.ext (by match a with | ⟨0, _⟩ => rfl | ⟨1, _⟩ => rfl)
  rw [val_main_v68_apply (F := Ideal), val_main_v66_apply (F := Ideal), e]

theorem ref_col_v74 (l u : FVec Ideal S16x1024 .f32) (b : Fin 16) (g j : Fin 1024) :
    val_main_v74 (F := Ideal) l u (ix3 b g j) = val_main_v64 (F := Ideal) l u (ix2 b g) := by
  have e : idx_main_v72 (idx_main_v74 (ix3 b g j)) = ix2 b g := funext fun a => Fin.ext (by match a with | ⟨0, _⟩ => rfl | ⟨1, _⟩ => rfl)
  rw [val_main_v74_apply (F := Ideal), val_main_v72_apply (F := Ideal), e]

theorem ref_col_v115 (l u : FVec Ideal S16x1024 .f32) (b : Fin 16) (g j : Fin 1024) :
    val_main_v115 (F := Ideal) l u (ix3 b g j) = val_main_v100 (F := Ideal) l u (ix2 b g) := by
  have e : idx_main_v114 (idx_main_v115 (ix3 b g j)) = ix2 b g := funext fun a => Fin.ext (by match a with | ⟨0, _⟩ => rfl | ⟨1, _⟩ => rfl)
  rw [val_main_v115_apply (F := Ideal), val_main_v114_apply (F := Ideal), e]

theorem ref_col_v118 (l u : FVec Ideal S16x1024 .f32) (b : Fin 16) (g j : Fin 1024) :
    val_main_v118 (F := Ideal) l u (ix3 b g j) = val_main_v107 (F := Ideal) l u (ix2 b g) := by
  have e : idx_main_v117 (idx_main_v118 (ix3 b g j)) = ix2 b g := funext fun a => Fin.ext (by match a with | ⟨0, _⟩ => rfl | ⟨1, _⟩ => rfl)
  rw [val_main_v118_apply (F := Ideal), val_main_v117_apply (F := Ideal), e]

theorem idx63 (b : Fin 16) (g k : Fin 1024) : idx_main_v63 (ix2 b g) k = ix3 b g k := funext fun a => Fin.ext (by match a with | ⟨0, _⟩ => rfl | ⟨1, _⟩ => rfl | ⟨2, _⟩ => rfl)

theorem idx64 (b : Fin 16) (g k : Fin 1024) : idx_main_v64 (ix2 b g) k = ix3 b g k := funext fun a => Fin.ext (by match a with | ⟨0, _⟩ => rfl | ⟨1, _⟩ => rfl | ⟨2, _⟩ => rfl)

theorem idx77 (b : Fin 16) (g k : Fin 1024) : idx_main_v77 (ix2 b g) k = ix3 b g k := funext fun a => Fin.ext (by match a with | ⟨0, _⟩ => rfl | ⟨1, _⟩ => rfl | ⟨2, _⟩ => rfl)

theorem idx78 (b : Fin 16) (g k : Fin 1024) : idx_main_v78 (ix2 b g) k = ix3 b g k := funext fun a => Fin.ext (by match a with | ⟨0, _⟩ => rfl | ⟨1, _⟩ => rfl | ⟨2, _⟩ => rfl)

section
variable (l u : FVec Ideal S16x1024 .f32)
variable (x2 x3 : FVec Ideal S32x16 .f32) (i : grid0.Coords) (t : Fin 32)
variable (hi : (i 0).val = t.val)
variable (h2 : ∀ (r : Fin 32) (b : Fin 16), x2 (ix2 r b) = l (ix2 b (grow t r)))
variable (h3 : ∀ (r : Fin 32) (b : Fin 16), x3 (ix2 r b) = u (ix2 b (grow t r)))

local notation "A5" => k0_pay5 (F := Ideal) i
local notation "A6" => k0_pay6 (F := Ideal) i
local notation "A7" => k0_pay7 (F := Ideal) i l x3
local notation "A8" => k0_pay8 (F := Ideal) i u x2
local notation "A9" => k0_pay9 (F := Ideal) i l x3
local notation "A10" => k0_pay10 (F := Ideal) i l x3
local notation "A11" => k0_pay11 (F := Ideal) i u x2
local notation "A12" => k0_pay12 (F := Ideal) i u x2
local notation "A13" => k0_pay13 (F := Ideal) i l u x2 x3
local notation "A14" => k0_pay14 (F := Ideal) i l u x2 x3
local notation "EPS" => Ideal.ofBits FTy.f32 0x2B8CBCCC#32

include hi h2 h3 in
/-- The secant slope after the selection. -/
theorem K15 (b : Fin 16) (r : Fin 32) (j : Fin 1024) :
    k0_pay15 A11 A13 A14 EPS (ix3 b r j) = val_main_v34 (F := Ideal) l u (ix3 b (grow t r) j) := by
  stage [k0_pay15, K11 l u x2 i t hi h2, K13 l u x2 x3 i t hi h2 h3, K14 l u x2 x3 i t hi h2 h3,
    val_main_v34_apply, val_main_v33_apply, val_main_v31_apply, val_main_v32_apply, val_main_cst_1_apply,
    val_main_v30_apply, val_main_v29_apply, val_main_v28_apply, val_main_cst_0_apply]

include hi h2 h3 in
/-- The midpoint. -/
theorem K16 (b : Fin 16) (r : Fin 32) (j : Fin 1024) :
    k0_pay16 A7 A8 (ix3 b r j) = val_main_v39 (F := Ideal) l u (ix3 b (grow t r) j) := by
  stage [k0_pay16, K7 l u x3 i t hi h3, K8 l u x2 i t hi h2,
    val_main_v39_apply, val_main_v38_apply, val_main_cst_2_apply, val_main_v37_apply]

include hi h2 h3 in
/-- The tangent slope. -/
theorem K17 (b : Fin 16) (r : Fin 32) (j : Fin 1024) :
    k0_pay17 A7 A8 (ix3 b r j) = val_main_v40 (F := Ideal) l u (ix3 b (grow t r) j) := by
  stage [k0_pay17, K16 l u x2 x3 i t hi h2 h3, val_main_v40_apply]

include hi h2 h3 in
/-- The upper bias: the row sum of the masked secant intercepts. -/
theorem K18 (b : Fin 16) (r : Fin 32) :
    k0_pay18 A5 A7 A9 A11 A13 A14 EPS (ix2 b r) = val_main_v77 (F := Ideal) l u (ix2 b (grow t r)) := by
  stage [k0_pay18, K15 l u x2 x3 i t hi h2 h3, K7 l u x3 i t hi h3, K9 l u x3 i t hi h3, pay5_at i t hi,
    val_main_v77_apply, val_main_cst_7_apply, idx77, val_main_v48_apply, val_main_v36_apply, val_main_v35_apply,
    ref_mask_v47, zero_word_add]
  rw [red_sum']
  stage [k0_pay18, K15 l u x2 x3 i t hi h2 h3, K7 l u x3 i t hi h3, K9 l u x3 i t hi h3, pay5_at i t hi,
    val_main_v77_apply, val_main_cst_7_apply, idx77, val_main_v48_apply, val_main_v36_apply, val_main_v35_apply,
    ref_mask_v47, zero_word_add]

include hi h2 h3 in
/-- The lower bias: the row sum of the masked tangent intercepts. -/
theorem K19 (b : Fin 16) (r : Fin 32) :
    k0_pay19 A5 A7 A8 (ix2 b r) = val_main_v78 (F := Ideal) l u (ix2 b (grow t r)) := by
  stage [k0_pay19, K16 l u x2 x3 i t hi h2 h3, K17 l u x2 x3 i t hi h2 h3, pay5_at i t hi,
    val_main_v78_apply, val_main_cst_8_apply, idx78, val_main_v54_apply, val_main_v42_apply, val_main_v41_apply,
    ref_mask_v53, zero_word_add]
  rw [red_sum']
  stage [k0_pay19, K16 l u x2 x3 i t hi h2 h3, K17 l u x2 x3 i t hi h2 h3, pay5_at i t hi,
    val_main_v78_apply, val_main_cst_8_apply, idx78, val_main_v54_apply, val_main_v42_apply, val_main_v41_apply,
    ref_mask_v53, zero_word_add]

include hi h2 h3 in
/-- The upper coefficient of S: the masked secant slope off the diagonal, minus the row sum on it. -/
theorem K20 (b : Fin 16) (r : Fin 32) (j : Fin 1024) :
    k0_pay20 A5 A6 A11 A13 A14 EPS (ix3 b r j) = val_main_v70 (F := Ideal) l u (ix3 b (grow t r) j) := by
  stage [k0_pay20, K15 l u x2 x3 i t hi h2 h3, pay5_at i t hi, pay6_at i t hi,
    val_main_v70_apply, val_main_v45_apply, ref_mask_v44, val_main_v69_apply, ref_mask_v67, ref_col_v68,
    val_main_v63_apply, val_main_cst_5_apply, idx63, zero_word_add]
  rw [red_sum']
  stage [k0_pay20, K15 l u x2 x3 i t hi h2 h3, pay5_at i t hi, pay6_at i t hi,
    val_main_v70_apply, val_main_v45_apply, ref_mask_v44, val_main_v69_apply, ref_mask_v67, ref_col_v68,
    val_main_v63_apply, val_main_cst_5_apply, idx63, zero_word_add]

include hi h2 h3 in
/-- The lower coefficient of S. -/
theorem K21 (b : Fin 16) (r : Fin 32) (j : Fin 1024) :
    k0_pay21 A5 A6 A7 A8 (ix3 b r j) = val_main_v76 (F := Ideal) l u (ix3 b (grow t r) j) := by
  stage [k0_pay21, K17 l u x2 x3 i t hi h2 h3, pay5_at i t hi, pay6_at i t hi,
    val_main_v76_apply, val_main_v51_apply, ref_mask_v50, val_main_v75_apply, ref_mask_v73, ref_col_v74,
    val_main_v64_apply, val_main_cst_6_apply, idx64, zero_word_add]
  rw [red_sum']
  stage [k0_pay21, K17 l u x2 x3 i t hi h2 h3, pay5_at i t hi, pay6_at i t hi,
    val_main_v76_apply, val_main_v51_apply, ref_mask_v50, val_main_v75_apply, ref_mask_v73, ref_col_v74,
    val_main_v64_apply, val_main_cst_6_apply, idx64, zero_word_add]

end

end Cert.Bridge

end
-- ==== Proof.Part3.lean ====
/-
  The bounds of g(S) = 1/(1 + S) and the six results. The two values of g, the secant slope of g with its
  selection, the tangent slope at S_u, and the intercepts are the same operations of the two row sums on
  both sides; the coefficient results scale each row of the S-coefficients by its slope, the bias results
  combine a slope, a bias sum and an intercept, and the soft bounds clamp g to [0, 1]. The four row results
  leave the kernel transposed: entry (r, b) of the block is the reference's entry (b, 32t + r).
-/
import proofs.«118019_j59949153518086_2_alg».proof.Proof.Part2

noncomputable section

namespace Cert.Bridge

open Idealize.ShloMosaic Idealize.ShloMosaic.ValueIdx
open Cert.KernelIdeal Cert.KernelIdeal.Gen
open Cert.Bridge.Layout
open Cert.ReferenceIdeal.Read

section
variable (l u : FVec Ideal S16x1024 .f32)
variable (x2 x3 : FVec Ideal S32x16 .f32) (i : grid0.Coords) (t : Fin 32)
variable (hi : (i 0).val = t.val)
variable (h2 : ∀ (r : Fin 32) (b : Fin 16), x2 (ix2 r b) = l (ix2 b (grow t r)))
variable (h3 : ∀ (r : Fin 32) (b : Fin 16), x3 (ix2 r b) = u (ix2 b (grow t r)))

local notation "A5" => k0_pay5 (F := Ideal) i
local notation "A6" => k0_pay6 (F := Ideal) i
local notation "A7" => k0_pay7 (F := Ideal) i l x3
local notation "A8" => k0_pay8 (F := Ideal) i u x2
local notation "A9" => k0_pay9 (F := Ideal) i l x3
local notation "A10" => k0_pay10 (F := Ideal) i l x3
local notation "A11" => k0_pay11 (F := Ideal) i u x2
local notation "A12" => k0_pay12 (F := Ideal) i u x2
local notation "A13" => k0_pay13 (F := Ideal) i l u x2 x3
local notation "A14" => k0_pay14 (F := Ideal) i l u x2 x3
local notation "EPS" => Ideal.ofBits FTy.f32 0x2B8CBCCC#32

include hi h3 in
/-- g at S_l. -/
theorem K22 (b : Fin 16) (r : Fin 32) :
    k0_pay22 A10 (ix2 b r) = val_main_v82 (F := Ideal) l u (ix2 b (grow t r)) := by
  stage [k0_pay22, K10 l u x3 i t hi h3, val_main_v82_apply, val_main_v81_apply, val_main_cst_10_apply,
    val_main_v80_apply, val_main_v79_apply, val_main_cst_9_apply]

include hi h2 in
/-- g at S_u. -/
theorem K23 (b : Fin 16) (r : Fin 32) :
    k0_pay23 A12 (ix2 b r) = val_main_v86 (F := Ideal) l u (ix2 b (grow t r)) := by
  stage [k0_pay23, K12 l u x2 i t hi h2, val_main_v86_apply, val_main_v85_apply, val_main_cst_12_apply,
    val_main_v84_apply, val_main_v83_apply, val_main_cst_11_apply]

include hi h2 h3 in
theorem K24 (b : Fin 16) (r : Fin 32) :
    k0_pay24 A10 A12 (ix2 b r) = val_main_v87 (F := Ideal) l u (ix2 b (grow t r)) := by
  stage [k0_pay24, K10 l u x3 i t hi h3, K12 l u x2 i t hi h2, val_main_v87_apply]

include hi h2 h3 in
theorem K25 (b : Fin 16) (r : Fin 32) :
    k0_pay25 A10 A12 (ix2 b r) = val_main_v88 (F := Ideal) l u (ix2 b (grow t r)) := by
  stage [k0_pay25, K22 l u x3 i t hi h3, K23 l u x2 i t hi h2, val_main_v88_apply]

include hi h2 h3 in
theorem K26 (b : Fin 16) (r : Fin 32) :
    k0_pay26 A10 A12 (ix2 b r) = val_main_v90 (F := Ideal) l u (ix2 b (grow t r)) := by
  stage [k0_pay26, K24 l u x2 x3 i t hi h2 h3, val_main_v90_apply, val_main_v89_apply, val_main_cst_13_apply]

include hi h2 h3 in
/-- The slope of the upper relaxation of g, with its selection. -/
theorem K27 (b : Fin 16) (r : Fin 32) :
    k0_pay27 A12 (k0_pay24 A10 A12) (k0_pay25 A10 A12) (k0_pay26 A10 A12) (ix2 b r)
      = val_main_v100 (F := Ideal) l u (ix2 b (grow t r)) := by
  stage [k0_pay27, K12 l u x2 i t hi h2, K24 l u x2 x3 i t hi h2 h3, K25 l u x2 x3 i t hi h2 h3, K26 l u x2 x3 i t hi h2 h3,
    val_main_v100_apply, val_main_v94_apply, val_main_v92_apply, val_main_v93_apply, val_main_cst_14_apply,
    val_main_v99_apply, val_main_v98_apply, val_main_cst_16_apply, val_main_v97_apply, val_main_v96_apply,
    val_main_v95_apply, val_main_cst_15_apply, val_main_v91_apply]

include hi h2 in
/-- The slope of the lower relaxation of g. -/
theorem K28 (b : Fin 16) (r : Fin 32) :
    k0_pay28 A12 (ix2 b r) = val_main_v107 (F := Ideal) l u (ix2 b (grow t r)) := by
  stage [k0_pay28, K12 l u x2 i t hi h2, val_main_v107_apply, val_main_v106_apply, val_main_cst_18_apply,
    val_main_v105_apply, val_main_v104_apply, val_main_v103_apply, val_main_cst_17_apply]

include hi h2 h3 in
/-- The upper coefficient result. -/
theorem K29 (b : Fin 16) (r : Fin 32) (j : Fin 1024) :
    k0_pay29 A12 (k0_pay20 A5 A6 A11 A13 A14 EPS) (k0_pay24 A10 A12) (k0_pay25 A10 A12) (k0_pay26 A10 A12) (ix3 b r j)
      = val_main_v116 (F := Ideal) l u (ix3 b (grow t r) j) := by
  stage [k0_pay29, K27 l u x2 x3 i t hi h2 h3, K20 l u x2 x3 i t hi h2 h3, val_main_v116_apply, ref_col_v115]

include hi h2 h3 in
/-- The lower coefficient result. -/
theorem K30 (b : Fin 16) (r : Fin 32) (j : Fin 1024) :
    k0_pay30 A12 (k0_pay21 A5 A6 A7 A8) (ix3 b r j) = val_main_v119 (F := Ideal) l u (ix3 b (grow t r) j) := by
  stage [k0_pay30, K28 l u x2 i t hi h2, K21 l u x2 x3 i t hi h2 h3, val_main_v119_apply, ref_col_v118]

include hi h2 h3 in
/-- The upper bias result. -/
theorem K31 (b : Fin 16) (r : Fin 32) :
    k0_pay31 A10 A12 (k0_pay18 A5 A7 A9 A11 A13 A14 EPS) (k0_pay22 A10) (k0_pay24 A10 A12) (k0_pay25 A10 A12) (k0_pay26 A10 A12) (ix2 b r)
      = val_main_v121 (F := Ideal) l u (ix2 b (grow t r)) := by
  stage [k0_pay31, K27 l u x2 x3 i t hi h2 h3, K10 l u x3 i t hi h3, K18 l u x2 x3 i t hi h2 h3, K22 l u x3 i t hi h3,
    val_main_v121_apply, val_main_v120_apply, val_main_v102_apply, val_main_v101_apply]

include hi h2 h3 in
/-- The lower bias result. -/
theorem K32 (b : Fin 16) (r : Fin 32) :
    k0_pay32 A12 (k0_pay19 A5 A7 A8) (k0_pay23 A12) (ix2 b r) = val_main_v123 (F := Ideal) l u (ix2 b (grow t r)) := by
  stage [k0_pay32, K28 l u x2 i t hi h2, K12 l u x2 i t hi h2, K19 l u x2 x3 i t hi h2 h3, K23 l u x2 i t hi h2,
    val_main_v123_apply, val_main_v122_apply, val_main_v113_apply, val_main_v112_apply, val_main_v111_apply,
    val_main_v110_apply, val_main_cst_20_apply, val_main_v109_apply, val_main_v108_apply, val_main_cst_19_apply,
    val_main_v86_apply, val_main_v85_apply, val_main_cst_12_apply, val_main_v84_apply, val_main_v83_apply, val_main_cst_11_apply]

/-! ## The four row results as the kernel stores them, transposed -/

include hi h2 in
/-- soft_lower: g at S_u clamped to [0, 1]. -/
theorem O4 (r : Fin 32) (b : Fin 16) :
    k0_pay34 (k0_pay23 A12) (ix2 r b) = val_main_v124 (F := Ideal) l u (ix2 b (grow t r)) := by
  simp only [k0_pay34]
  rw [tr_back]
  stage [K23 l u x2 i t hi h2, val_main_v124_apply, val_main_call2_v4_apply, val_main_call2_v3_apply, val_main_cst_22_apply,
    val_main_call2_v2_apply, val_main_call2_v1_apply, val_main_call2_v0_apply, val_main_cst_21_apply]

include hi h3 in
/-- soft_upper: g at S_l clamped to [0, 1]. -/
theorem O5 (r : Fin 32) (b : Fin 16) :
    k0_pay1 (k0_pay33 (k0_pay22 A10)) (ix2 r b) = val_main_v125 (F := Ideal) l u (ix2 b (grow t r)) := by
  simp only [k0_pay1]
  rw [tr_back]
  stage [k0_pay33, K22 l u x3 i t hi h3, val_main_v125_apply, val_main_call3_v4_apply, val_main_call3_v3_apply, val_main_cst_24_apply,
    val_main_call3_v2_apply, val_main_call3_v1_apply, val_main_call3_v0_apply, val_main_cst_23_apply]

include hi h2 h3 in
theorem O8 (r : Fin 32) (b : Fin 16) :
    k0_pay2 (k0_pay32 A12 (k0_pay19 A5 A7 A8) (k0_pay23 A12)) (ix2 r b) = val_main_v123 (F := Ideal) l u (ix2 b (grow t r)) := by
  simp only [k0_pay2]
  rw [tr_back]
  exact K32 l u x2 x3 i t hi h2 h3 b r

include hi h2 h3 in
theorem O9 (r : Fin 32) (b : Fin 16) :
    k0_pay3 (k0_pay31 A10 A12 (k0_pay18 A5 A7 A9 A11 A13 A14 EPS) (k0_pay22 A10) (k0_pay24 A10 A12) (k0_pay25 A10 A12) (k0_pay26 A10 A12)) (ix2 r b)
      = val_main_v121 (F := Ideal) l u (ix2 b (grow t r)) := by
  simp only [k0_pay3]
  rw [tr_back]
  exact K31 l u x2 x3 i t hi h2 h3 b r

end

end Cert.Bridge

end
-- ==== Proof.Arrays.lean ====
/-
  From blocks to arrays. At grid point t the two whole-array windows hold the two arguments, the two row
  windows hold rows 32t … 32t + 31 of the transposed arguments, and each output window's block is rows
  32t … 32t + 31 of one function of the arguments (the reference's result, transposed for the four row
  results). The 32 blocks tile each output array, so after the run each array is that function.
-/
import proofs.«118019_j59949153518086_2_alg».proof.Proof.KernelIdealFrame
import proofs.«118019_j59949153518086_2_alg».proof.Proof.Part3
import Idealize.ShloMosaic.Lib.Pipeline.Value
import Idealize.ShloMosaic.Lib.StableHlo.Run
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP
open Cert.Bridge Cert.Bridge.Layout
open Cert.ReferenceIdeal.Read

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a number below 32. -/
def tt (t : Fin cfg0.N) : Fin 32 := ⟨t.val, by have := t.isLt; have h : cfg0.N = 32 := N_0; omega⟩

/-- The grid's one coordinate at point t is t. -/
theorem coords_val : ∀ t : Fin cfg0.N, ((grid0.coords t) 0).val = (tt t).val :=
  (by decide +kernel : ∀ t : Fin grid0.N, ((grid0.coords t) 0).val = t.val)

/-- The printed index maps, decided over the grid: the whole-array windows stay at block (0, 0), the row
    windows are at block (t, 0). -/
theorem idx_rows : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The coefficient windows are at block (0, t, 0). -/
theorem idx_coef : ∀ t : Fin cfg0.N,
    (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0) :=
  (by decide +kernel : ∀ t : Fin grid0.N, _)

/-! ## The input windows -/

/-- The host transposes the first argument before the region. -/
theorem V_v0 (c : Dev nD) : (V m c main_v0 : S1024x16.Idx → Ideal .f32)
    = transpose S1024x16 [1, 0] (m ((c : Thread nD τ).loc main_arg0)) transposes_S16x1024_S1024x16_1_0 := by
  show StableHlo.after hostOps0 (fun b => m (c, b)) (Proc.devRef .tc main_v0) = _
  after_results

/-- And the second. -/
theorem V_v1 (c : Dev nD) : (V m c main_v1 : S1024x16.Idx → Ideal .f32)
    = transpose S1024x16 [1, 0] (m ((c : Thread nD τ).loc main_arg1)) transposes_S16x1024_S1024x16_1_0 := by
  show StableHlo.after hostOps0 (fun b => m (c, b)) (Proc.devRef .tc main_v1) = _
  after_results

/-- Window 0's block is the whole first argument. -/
theorem iblk0 (c : Dev nD) (t : Fin cfg0.N) :
    (iblk m c 0 t : FVec Ideal S16x1024 .f32) = (m ((c : Thread nD τ).loc main_arg0) : S16x1024.Idx → Ideal .f32) := by
  funext y
  unfold iblk
  rw [View.read_apply]
  show V m c main_arg0 _ = _
  rw [V_main_arg0]
  refine congrArg (m ((c : Thread nD τ).loc main_arg0) : S16x1024.Idx → Ideal .f32) ?_
  funext a; apply Fin.ext
  match a with
  | ⟨0, _⟩ => show win0_0.index t (0 : Fin 2) * 16 + 1 * (y 0).val = (y 0).val; rw [(idx_rows t).1.1]; omega
  | ⟨1, _⟩ => show win0_0.index t (1 : Fin 2) * 1024 + 1 * (y 1).val = (y 1).val; rw [(idx_rows t).1.2]; omega

/-- Window 1's block is the whole second argument. -/
theorem iblk1 (c : Dev nD) (t : Fin cfg0.N) :
    (iblk m c 1 t : FVec Ideal S16x1024 .f32) = (m ((c : Thread nD τ).loc main_arg1) : S16x1024.Idx → Ideal .f32) := by
  funext y
  unfold iblk
  rw [View.read_apply]
  show V m c main_arg1 _ = _
  rw [V_main_arg1]
  refine congrArg (m ((c : Thread nD τ).loc main_arg1) : S16x1024.Idx → Ideal .f32) ?_
  funext a; apply Fin.ext
  match a with
  | ⟨0, _⟩ => show win0_1.index t (0 : Fin 2) * 16 + 1 * (y 0).val = (y 0).val; rw [(idx_rows t).2.1.1]; omega
  | ⟨1, _⟩ => show win0_1.index t (1 : Fin 2) * 1024 + 1 * (y 1).val = (y 1).val; rw [(idx_rows t).2.1.2]; omega

/-- Window 2's block at point t: entry (r, b) is the first argument's (b, 32t + r). -/
theorem hyp2 (c : Dev nD) (t : Fin cfg0.N) (r : Fin 32) (b : Fin 16) :
    (iblk m c 2 t : FVec Ideal S32x16 .f32) (ix2 r b) = (iblk m c 0 t : FVec Ideal S16x1024 .f32) (ix2 b (grow (tt t) r)) := by
  rw [iblk0]
  unfold iblk
  rw [View.read_apply]
  show V m c main_v0 _ = _
  rw [V_v0]
  have hemb : ((cfg0.win 2).blk t).view.emb (ix2 r b) = ix2 (grow (tt t) r) b := by
    funext a; apply Fin.ext
    match a with
    | ⟨0, _⟩ => show win0_2.index t (0 : Fin 2) * 32 + 1 * r.val = 32 * t.val + r.val; rw [(idx_rows t).2.2.1.1]; omega
    | ⟨1, _⟩ => show win0_2.index t (1 : Fin 2) * 16 + 1 * b.val = b.val; rw [(idx_rows t).2.2.1.2]; omega
  rw [hemb]
  exact tr_host' _ _ (grow (tt t) r) b

/-- Window 3's block at point t: entry (r, b) is the second argument's (b, 32t + r). -/
theorem hyp3 (c : Dev nD) (t : Fin cfg0.N) (r : Fin 32) (b : Fin 16) :
    (iblk m c 3 t : FVec Ideal S32x16 .f32) (ix2 r b) = (iblk m c 1 t : FVec Ideal S16x1024 .f32) (ix2 b (grow (tt t) r)) := by
  rw [iblk1]
  unfold iblk
  rw [View.read_apply]
  show V m c main_v1 _ = _
  rw [V_v1]
  have hemb : ((cfg0.win 3).blk t).view.emb (ix2 r b) = ix2 (grow (tt t) r) b := by
    funext a; apply Fin.ext
    match a with
    | ⟨0, _⟩ => show win0_3.index t (0 : Fin 2) * 32 + 1 * r.val = 32 * t.val + r.val; rw [(idx_rows t).2.2.2.1.1]; omega
    | ⟨1, _⟩ => show win0_3.index t (1 : Fin 2) * 16 + 1 * b.val = b.val; rw [(idx_rows t).2.2.2.1.2]; omega
  rw [hemb]
  exact tr_host' _ _ (grow (tt t) r) b

/-! ## Output window 4: rows 32t … 32t + 31 of a [1024,16] array -/

/-- The array window 4 ends holding: the reference's result, transposed. -/
def G4 (c : Dev nD) : S1024x16.Idx → Ideal .f32 :=
  fun q => val_main_v124 (F := Ideal) (m ((c : Thread nD τ).loc main_arg0)) (m ((c : Thread nD τ).loc main_arg1)) (ix2 (q 1) (q 0))

/-- What point t writes back is rows 32t … of it. -/
theorem flushed4 (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz2]
  simp only [View.ld_unit_zero (S := S16x1024) hz2, View.ld_unit_zero (S := S32x16) hz2]
  funext y
  obtain ⟨r, b, rfl⟩ : ∃ (r : Fin 32) (b : Fin 16), y = ix2 r b := ⟨y 0, y 1, eq_ix2 y⟩
  rw [View.read_apply]
  have hemb : ((cfg0.win 4).blk t).view.emb (ix2 r b) = ix2 (grow (tt t) r) b := by
    funext a; apply Fin.ext
    match a with
    | ⟨0, _⟩ => show win0_4.index t (0 : Fin 2) * 32 + 1 * r.val = 32 * t.val + r.val; rw [(idx_rows t).2.2.2.2.1.1]; omega
    | ⟨1, _⟩ => show win0_4.index t (1 : Fin 2) * 16 + 1 * b.val = b.val; rw [(idx_rows t).2.2.2.2.1.2]; omega
  rw [hemb]
  refine (O4 (iblk m c 0 t) (iblk m c 1 t) (iblk m c 2 t) (grid0.coords t) (tt t) (coords_val t) (hyp2 m c t) r b).trans ?_
  unfold G4
  rw [iblk0, iblk1]
  rfl

theorem mem_blk4 (t : Fin cfg0.N) (q : S1024x16.Idx) :
    q ∈ ((cfg0.win 4).blk t).view.set ↔ ∀ a : Fin 2, win0_4.index t a * S32x16.size a ≤ (q a).val ∧ (q a).val < win0_4.index t a * S32x16.size a + S32x16.size a := by
  show q ∈ ((View.whole main_v2_0).slice (win0_4.rect t)).set ↔ _
  rw [View.set_slice_whole, Rect.mem_set_unit]
  exact Iff.rfl

/-- Row q₀ lies in the block of point q₀ / 32. -/
theorem cover4 (q : S1024x16.Idx) : ∃ t : Fin cfg0.N, (cfg0.win 4).flush t = true ∧ q ∈ ((cfg0.win 4).blk t).view.set := by
  have h0 : (q 0).val < 1024 := (q 0).isLt
  have h1 : (q 1).val < 16 := (q 1).isLt
  have hN : cfg0.N = 32 := N_0
  refine ⟨⟨(q 0).val / 32, by rw [hN]; omega⟩, flush0_4 _, ?_⟩
  rw [mem_blk4]
  intro a
  match a with
  | ⟨0, _⟩ =>
    show win0_4.index _ (0 : Fin 2) * 32 ≤ (q 0).val ∧ (q 0).val < win0_4.index _ (0 : Fin 2) * 32 + 32
    rw [(idx_rows _).2.2.2.2.1.1]; show (q 0).val / 32 * 32 ≤ (q 0).val ∧ (q 0).val < (q 0).val / 32 * 32 + 32; omega
  | ⟨1, _⟩ =>
    show win0_4.index _ (1 : Fin 2) * 16 ≤ (q 1).val ∧ (q 1).val < win0_4.index _ (1 : Fin 2) * 16 + 16
    rw [(idx_rows _).2.2.2.2.1.2]; omega

theorem final4 (c : Dev nD) : (dats m 0 c).arrAt 4 cfg0.N = G4 m c :=
  (dats m 0 c).arrAt_eq_of_cover 4 (G4 m c) (fun t _ => flushed4 m c t) (cover4)

/-! ## Output window 5: rows 32t … 32t + 31 of a [1024,16] array -/

/-- The array window 5 ends holding: the reference's result, transposed. -/
def G5 (c : Dev nD) : S1024x16.Idx → Ideal .f32 :=
  fun q => val_main_v125 (F := Ideal) (m ((c : Thread nD τ).loc main_arg0)) (m ((c : Thread nD τ).loc main_arg1)) (ix2 (q 1) (q 0))

/-- What point t writes back is rows 32t … of it. -/
theorem flushed5 (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz2]
  simp only [View.ld_unit_zero (S := S16x1024) hz2, View.ld_unit_zero (S := S32x16) hz2]
  funext y
  obtain ⟨r, b, rfl⟩ : ∃ (r : Fin 32) (b : Fin 16), y = ix2 r b := ⟨y 0, y 1, eq_ix2 y⟩
  rw [View.read_apply]
  have hemb : ((cfg0.win 5).blk t).view.emb (ix2 r b) = ix2 (grow (tt t) r) b := by
    funext a; apply Fin.ext
    match a with
    | ⟨0, _⟩ => show win0_5.index t (0 : Fin 2) * 32 + 1 * r.val = 32 * t.val + r.val; rw [(idx_rows t).2.2.2.2.2.1.1]; omega
    | ⟨1, _⟩ => show win0_5.index t (1 : Fin 2) * 16 + 1 * b.val = b.val; rw [(idx_rows t).2.2.2.2.2.1.2]; omega
  rw [hemb]
  refine (O5 (iblk m c 0 t) (iblk m c 1 t) (iblk m c 3 t) (grid0.coords t) (tt t) (coords_val t) (hyp3 m c t) r b).trans ?_
  unfold G5
  rw [iblk0, iblk1]
  rfl

theorem mem_blk5 (t : Fin cfg0.N) (q : S1024x16.Idx) :
    q ∈ ((cfg0.win 5).blk t).view.set ↔ ∀ a : Fin 2, win0_5.index t a * S32x16.size a ≤ (q a).val ∧ (q a).val < win0_5.index t a * S32x16.size a + S32x16.size a := by
  show q ∈ ((View.whole main_v2_1).slice (win0_5.rect t)).set ↔ _
  rw [View.set_slice_whole, Rect.mem_set_unit]
  exact Iff.rfl

/-- Row q₀ lies in the block of point q₀ / 32. -/
theorem cover5 (q : S1024x16.Idx) : ∃ t : Fin cfg0.N, (cfg0.win 5).flush t = true ∧ q ∈ ((cfg0.win 5).blk t).view.set := by
  have h0 : (q 0).val < 1024 := (q 0).isLt
  have h1 : (q 1).val < 16 := (q 1).isLt
  have hN : cfg0.N = 32 := N_0
  refine ⟨⟨(q 0).val / 32, by rw [hN]; omega⟩, flush0_5 _, ?_⟩
  rw [mem_blk5]
  intro a
  match a with
  | ⟨0, _⟩ =>
    show win0_5.index _ (0 : Fin 2) * 32 ≤ (q 0).val ∧ (q 0).val < win0_5.index _ (0 : Fin 2) * 32 + 32
    rw [(idx_rows _).2.2.2.2.2.1.1]; show (q 0).val / 32 * 32 ≤ (q 0).val ∧ (q 0).val < (q 0).val / 32 * 32 + 32; omega
  | ⟨1, _⟩ =>
    show win0_5.index _ (1 : Fin 2) * 16 ≤ (q 1).val ∧ (q 1).val < win0_5.index _ (1 : Fin 2) * 16 + 16
    rw [(idx_rows _).2.2.2.2.2.1.2]; omega

theorem final5 (c : Dev nD) : (dats m 0 c).arrAt 5 cfg0.N = G5 m c :=
  (dats m 0 c).arrAt_eq_of_cover 5 (G5 m c) (fun t _ => flushed5 m c t) (cover5)

/-! ## Output window 8: rows 32t … 32t + 31 of a [1024,16] array -/

/-- The array window 8 ends holding: the reference's result, transposed. -/
def G8 (c : Dev nD) : S1024x16.Idx → Ideal .f32 :=
  fun q => val_main_v123 (F := Ideal) (m ((c : Thread nD τ).loc main_arg0)) (m ((c : Thread nD τ).loc main_arg1)) (ix2 (q 1) (q 0))

/-- What point t writes back is rows 32t … of it. -/
theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz2]
  simp only [View.ld_unit_zero (S := S16x1024) hz2, View.ld_unit_zero (S := S32x16) hz2]
  funext y
  obtain ⟨r, b, rfl⟩ : ∃ (r : Fin 32) (b : Fin 16), y = ix2 r b := ⟨y 0, y 1, eq_ix2 y⟩
  rw [View.read_apply]
  have hemb : ((cfg0.win 8).blk t).view.emb (ix2 r b) = ix2 (grow (tt t) r) b := by
    funext a; apply Fin.ext
    match a with
    | ⟨0, _⟩ => show win0_8.index t (0 : Fin 2) * 32 + 1 * r.val = 32 * t.val + r.val; rw [(idx_rows t).2.2.2.2.2.2.1.1]; omega
    | ⟨1, _⟩ => show win0_8.index t (1 : Fin 2) * 16 + 1 * b.val = b.val; rw [(idx_rows t).2.2.2.2.2.2.1.2]; omega
  rw [hemb]
  refine (O8 (iblk m c 0 t) (iblk m c 1 t) (iblk m c 2 t) (iblk m c 3 t) (grid0.coords t) (tt t) (coords_val t) (hyp2 m c t) (hyp3 m c t) r b).trans ?_
  unfold G8
  rw [iblk0, iblk1]
  rfl

theorem mem_blk8 (t : Fin cfg0.N) (q : S1024x16.Idx) :
    q ∈ ((cfg0.win 8).blk t).view.set ↔ ∀ a : Fin 2, win0_8.index t a * S32x16.size a ≤ (q a).val ∧ (q a).val < win0_8.index t a * S32x16.size a + S32x16.size a := by
  show q ∈ ((View.whole main_v2_4).slice (win0_8.rect t)).set ↔ _
  rw [View.set_slice_whole, Rect.mem_set_unit]
  exact Iff.rfl

/-- Row q₀ lies in the block of point q₀ / 32. -/
theorem cover8 (q : S1024x16.Idx) : ∃ t : Fin cfg0.N, (cfg0.win 8).flush t = true ∧ q ∈ ((cfg0.win 8).blk t).view.set := by
  have h0 : (q 0).val < 1024 := (q 0).isLt
  have h1 : (q 1).val < 16 := (q 1).isLt
  have hN : cfg0.N = 32 := N_0
  refine ⟨⟨(q 0).val / 32, by rw [hN]; omega⟩, flush0_8 _, ?_⟩
  rw [mem_blk8]
  intro a
  match a with
  | ⟨0, _⟩ =>
    show win0_8.index _ (0 : Fin 2) * 32 ≤ (q 0).val ∧ (q 0).val < win0_8.index _ (0 : Fin 2) * 32 + 32
    rw [(idx_rows _).2.2.2.2.2.2.1.1]; show (q 0).val / 32 * 32 ≤ (q 0).val ∧ (q 0).val < (q 0).val / 32 * 32 + 32; omega
  | ⟨1, _⟩ =>
    show win0_8.index _ (1 : Fin 2) * 16 ≤ (q 1).val ∧ (q 1).val < win0_8.index _ (1 : Fin 2) * 16 + 16
    rw [(idx_rows _).2.2.2.2.2.2.1.2]; omega

theorem final8 (c : Dev nD) : (dats m 0 c).arrAt 8 cfg0.N = G8 m c :=
  (dats m 0 c).arrAt_eq_of_cover 8 (G8 m c) (fun t _ => flushed8 m c t) (cover8)

/-! ## Output window 9: rows 32t … 32t + 31 of a [1024,16] array -/

/-- The array window 9 ends holding: the reference's result, transposed. -/
def G9 (c : Dev nD) : S1024x16.Idx → Ideal .f32 :=
  fun q => val_main_v121 (F := Ideal) (m ((c : Thread nD τ).loc main_arg0)) (m ((c : Thread nD τ).loc main_arg1)) (ix2 (q 1) (q 0))

/-- What point t writes back is rows 32t … of it. -/
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz2]
  simp only [View.ld_unit_zero (S := S16x1024) hz2, View.ld_unit_zero (S := S32x16) hz2]
  funext y
  obtain ⟨r, b, rfl⟩ : ∃ (r : Fin 32) (b : Fin 16), y = ix2 r b := ⟨y 0, y 1, eq_ix2 y⟩
  rw [View.read_apply]
  have hemb : ((cfg0.win 9).blk t).view.emb (ix2 r b) = ix2 (grow (tt t) r) b := by
    funext a; apply Fin.ext
    match a with
    | ⟨0, _⟩ => show win0_9.index t (0 : Fin 2) * 32 + 1 * r.val = 32 * t.val + r.val; rw [(idx_rows t).2.2.2.2.2.2.2.1]; omega
    | ⟨1, _⟩ => show win0_9.index t (1 : Fin 2) * 16 + 1 * b.val = b.val; rw [(idx_rows t).2.2.2.2.2.2.2.2]; omega
  rw [hemb]
  refine (O9 (iblk m c 0 t) (iblk m c 1 t) (iblk m c 2 t) (iblk m c 3 t) (grid0.coords t) (tt t) (coords_val t) (hyp2 m c t) (hyp3 m c t) r b).trans ?_
  unfold G9
  rw [iblk0, iblk1]
  rfl

theorem mem_blk9 (t : Fin cfg0.N) (q : S1024x16.Idx) :
    q ∈ ((cfg0.win 9).blk t).view.set ↔ ∀ a : Fin 2, win0_9.index t a * S32x16.size a ≤ (q a).val ∧ (q a).val < win0_9.index t a * S32x16.size a + S32x16.size a := by
  show q ∈ ((View.whole main_v2_5).slice (win0_9.rect t)).set ↔ _
  rw [View.set_slice_whole, Rect.mem_set_unit]
  exact Iff.rfl

/-- Row q₀ lies in the block of point q₀ / 32. -/
theorem cover9 (q : S1024x16.Idx) : ∃ t : Fin cfg0.N, (cfg0.win 9).flush t = true ∧ q ∈ ((cfg0.win 9).blk t).view.set := by
  have h0 : (q 0).val < 1024 := (q 0).isLt
  have h1 : (q 1).val < 16 := (q 1).isLt
  have hN : cfg0.N = 32 := N_0
  refine ⟨⟨(q 0).val / 32, by rw [hN]; omega⟩, flush0_9 _, ?_⟩
  rw [mem_blk9]
  intro a
  match a with
  | ⟨0, _⟩ =>
    show win0_9.index _ (0 : Fin 2) * 32 ≤ (q 0).val ∧ (q 0).val < win0_9.index _ (0 : Fin 2) * 32 + 32
    rw [(idx_rows _).2.2.2.2.2.2.2.1]; show (q 0).val / 32 * 32 ≤ (q 0).val ∧ (q 0).val < (q 0).val / 32 * 32 + 32; omega
  | ⟨1, _⟩ =>
    show win0_9.index _ (1 : Fin 2) * 16 ≤ (q 1).val ∧ (q 1).val < win0_9.index _ (1 : Fin 2) * 16 + 16
    rw [(idx_rows _).2.2.2.2.2.2.2.2]; omega

theorem final9 (c : Dev nD) : (dats m 0 c).arrAt 9 cfg0.N = G9 m c :=
  (dats m 0 c).arrAt_eq_of_cover 9 (G9 m c) (fun t _ => flushed9 m c t) (cover9)

/-! ## Output window 6: rows 32t … 32t + 31 of every batch of a [16,1024,1024] array -/

/-- The array window 6 ends holding: the reference's result. -/
def G6 (c : Dev nD) : S16x1024x1024.Idx → Ideal .f32 :=
  val_main_v119 (F := Ideal) (m ((c : Thread nD τ).loc main_arg0)) (m ((c : Thread nD τ).loc main_arg1))

theorem flushed6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz3]
  simp only [View.ld_unit_zero (S := S16x1024) hz2, View.ld_unit_zero (S := S32x16) hz2]
  funext y
  obtain ⟨b, r, j, rfl⟩ : ∃ (b : Fin 16) (r : Fin 32) (j : Fin 1024), y = ix3 b r j := ⟨y 0, y 1, y 2, eq_ix3 y⟩
  rw [View.read_apply]
  have hemb : ((cfg0.win 6).blk t).view.emb (ix3 b r j) = ix3 b (grow (tt t) r) j := by
    funext a; apply Fin.ext
    match a with
    | ⟨0, _⟩ => show win0_6.index t (0 : Fin 3) * 16 + 1 * b.val = b.val; rw [(idx_coef t).1.1]; omega
    | ⟨1, _⟩ => show win0_6.index t (1 : Fin 3) * 32 + 1 * r.val = 32 * t.val + r.val; rw [(idx_coef t).1.2.1]; omega
    | ⟨2, _⟩ => show win0_6.index t (2 : Fin 3) * 1024 + 1 * j.val = j.val; rw [(idx_coef t).1.2.2]; omega
  rw [hemb]
  refine (K30 (iblk m c 0 t) (iblk m c 1 t) (iblk m c 2 t) (iblk m c 3 t) (grid0.coords t) (tt t) (coords_val t) (hyp2 m c t) (hyp3 m c t) b r j).trans ?_
  unfold G6
  rw [iblk0, iblk1]
  rfl

theorem mem_blk6 (t : Fin cfg0.N) (q : S16x1024x1024.Idx) :
    q ∈ ((cfg0.win 6).blk t).view.set ↔ ∀ a : Fin 3, win0_6.index t a * S16x32x1024.size a ≤ (q a).val ∧ (q a).val < win0_6.index t a * S16x32x1024.size a + S16x32x1024.size a := by
  show q ∈ ((View.whole main_v2_2).slice (win0_6.rect t)).set ↔ _
  rw [View.set_slice_whole, Rect.mem_set_unit]
  exact Iff.rfl

theorem cover6 (q : S16x1024x1024.Idx) : ∃ t : Fin cfg0.N, (cfg0.win 6).flush t = true ∧ q ∈ ((cfg0.win 6).blk t).view.set := by
  have h0 : (q 0).val < 16 := (q 0).isLt
  have h1 : (q 1).val < 1024 := (q 1).isLt
  have h2 : (q 2).val < 1024 := (q 2).isLt
  have hN : cfg0.N = 32 := N_0
  refine ⟨⟨(q 1).val / 32, by rw [hN]; omega⟩, flush0_6 _, ?_⟩
  rw [mem_blk6]
  intro a
  match a with
  | ⟨0, _⟩ =>
    show win0_6.index _ (0 : Fin 3) * 16 ≤ (q 0).val ∧ (q 0).val < win0_6.index _ (0 : Fin 3) * 16 + 16
    rw [(idx_coef _).1.1]; omega
  | ⟨1, _⟩ =>
    show win0_6.index _ (1 : Fin 3) * 32 ≤ (q 1).val ∧ (q 1).val < win0_6.index _ (1 : Fin 3) * 32 + 32
    rw [(idx_coef _).1.2.1]; show (q 1).val / 32 * 32 ≤ (q 1).val ∧ (q 1).val < (q 1).val / 32 * 32 + 32; omega
  | ⟨2, _⟩ =>
    show win0_6.index _ (2 : Fin 3) * 1024 ≤ (q 2).val ∧ (q 2).val < win0_6.index _ (2 : Fin 3) * 1024 + 1024
    rw [(idx_coef _).1.2.2]; omega

theorem final6 (c : Dev nD) : (dats m 0 c).arrAt 6 cfg0.N = G6 m c :=
  (dats m 0 c).arrAt_eq_of_cover 6 (G6 m c) (fun t _ => flushed6 m c t) (cover6)

/-! ## Output window 7: rows 32t … 32t + 31 of every batch of a [16,1024,1024] array -/

/-- The array window 7 ends holding: the reference's result. -/
def G7 (c : Dev nD) : S16x1024x1024.Idx → Ideal .f32 :=
  val_main_v116 (F := Ideal) (m ((c : Thread nD τ).loc main_arg0)) (m ((c : Thread nD τ).loc main_arg1))

theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold out0_7
  rw [View.canon_unit_zero hz3]
  simp only [View.ld_unit_zero (S := S16x1024) hz2, View.ld_unit_zero (S := S32x16) hz2]
  funext y
  obtain ⟨b, r, j, rfl⟩ : ∃ (b : Fin 16) (r : Fin 32) (j : Fin 1024), y = ix3 b r j := ⟨y 0, y 1, y 2, eq_ix3 y⟩
  rw [View.read_apply]
  have hemb : ((cfg0.win 7).blk t).view.emb (ix3 b r j) = ix3 b (grow (tt t) r) j := by
    funext a; apply Fin.ext
    match a with
    | ⟨0, _⟩ => show win0_7.index t (0 : Fin 3) * 16 + 1 * b.val = b.val; rw [(idx_coef t).2.1]; omega
    | ⟨1, _⟩ => show win0_7.index t (1 : Fin 3) * 32 + 1 * r.val = 32 * t.val + r.val; rw [(idx_coef t).2.2.1]; omega
    | ⟨2, _⟩ => show win0_7.index t (2 : Fin 3) * 1024 + 1 * j.val = j.val; rw [(idx_coef t).2.2.2]; omega
  rw [hemb]
  refine (K29 (iblk m c 0 t) (iblk m c 1 t) (iblk m c 2 t) (iblk m c 3 t) (grid0.coords t) (tt t) (coords_val t) (hyp2 m c t) (hyp3 m c t) b r j).trans ?_
  unfold G7
  rw [iblk0, iblk1]
  rfl

theorem mem_blk7 (t : Fin cfg0.N) (q : S16x1024x1024.Idx) :
    q ∈ ((cfg0.win 7).blk t).view.set ↔ ∀ a : Fin 3, win0_7.index t a * S16x32x1024.size a ≤ (q a).val ∧ (q a).val < win0_7.index t a * S16x32x1024.size a + S16x32x1024.size a := by
  show q ∈ ((View.whole main_v2_3).slice (win0_7.rect t)).set ↔ _
  rw [View.set_slice_whole, Rect.mem_set_unit]
  exact Iff.rfl

theorem cover7 (q : S16x1024x1024.Idx) : ∃ t : Fin cfg0.N, (cfg0.win 7).flush t = true ∧ q ∈ ((cfg0.win 7).blk t).view.set := by
  have h0 : (q 0).val < 16 := (q 0).isLt
  have h1 : (q 1).val < 1024 := (q 1).isLt
  have h2 : (q 2).val < 1024 := (q 2).isLt
  have hN : cfg0.N = 32 := N_0
  refine ⟨⟨(q 1).val / 32, by rw [hN]; omega⟩, flush0_7 _, ?_⟩
  rw [mem_blk7]
  intro a
  match a with
  | ⟨0, _⟩ =>
    show win0_7.index _ (0 : Fin 3) * 16 ≤ (q 0).val ∧ (q 0).val < win0_7.index _ (0 : Fin 3) * 16 + 16
    rw [(idx_coef _).2.1]; omega
  | ⟨1, _⟩ =>
    show win0_7.index _ (1 : Fin 3) * 32 ≤ (q 1).val ∧ (q 1).val < win0_7.index _ (1 : Fin 3) * 32 + 32
    rw [(idx_coef _).2.2.1]; show (q 1).val / 32 * 32 ≤ (q 1).val ∧ (q 1).val < (q 1).val / 32 * 32 + 32; omega
  | ⟨2, _⟩ =>
    show win0_7.index _ (2 : Fin 3) * 1024 ≤ (q 2).val ∧ (q 2).val < win0_7.index _ (2 : Fin 3) * 1024 + 1024
    rw [(idx_coef _).2.2.2]; omega

theorem final7 (c : Dev nD) : (dats m 0 c).arrAt 7 cfg0.N = G7 m c :=
  (dats m 0 c).arrAt_eq_of_cover 7 (G7 m c) (fun t _ => flushed7 m c t) (cover7)

/-! ## The host's transposes after the region, and the run -/

/-- Result main_v3 is the host's transpose of window 4's array: the reference's result. -/
theorem tail_main_v3 (c : Dev nD) :
    Pipeline.afterTail₀ cfgs (dats m) 0 (V0 m) [hostOps1] c main_v3
      = (val_main_v124 (F := Ideal) (m ((c : Thread nD τ).loc main_arg0)) (m ((c : Thread nD τ).loc main_arg1)) : S16x1024.Idx → Ideal .f32) := by
  unfold Pipeline.afterTail₀
  show StableHlo.after hostOps1 _ (Proc.devRef .tc main_v3) = _
  after_results
  have e := (Pipeline.withArrays_arr spec0 launch0.win.arr_inj c (V0 m c) (fun w => (dats m 0 c).arrAt w cfg0.N) 4).trans (final4 m c)
  funext q
  obtain ⟨b, g, rfl⟩ : ∃ (b : Fin 16) (g : Fin 1024), q = ix2 b g := ⟨q 0, q 1, eq_ix2 q⟩
  refine (tr_host _ _ b g).trans ?_
  exact congrFun e (ix2 g b)

/-- Result main_v4 is the host's transpose of window 5's array: the reference's result. -/
theorem tail_main_v4 (c : Dev nD) :
    Pipeline.afterTail₀ cfgs (dats m) 0 (V0 m) [hostOps1] c main_v4
      = (val_main_v125 (F := Ideal) (m ((c : Thread nD τ).loc main_arg0)) (m ((c : Thread nD τ).loc main_arg1)) : S16x1024.Idx → Ideal .f32) := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 5).trans (final5 m c)
  funext q
  obtain ⟨b, g, rfl⟩ : ∃ (b : Fin 16) (g : Fin 1024), q = ix2 b g := ⟨q 0, q 1, eq_ix2 q⟩
  refine (tr_host _ _ b g).trans ?_
  exact congrFun e (ix2 g b)

/-- Result main_v5 is the host's transpose of window 8's array: the reference's result. -/
theorem tail_main_v5 (c : Dev nD) :
    Pipeline.afterTail₀ cfgs (dats m) 0 (V0 m) [hostOps1] c main_v5
      = (val_main_v123 (F := Ideal) (m ((c : Thread nD τ).loc main_arg0)) (m ((c : Thread nD τ).loc main_arg1)) : S16x1024.Idx → Ideal .f32) := by
  unfold Pipeline.afterTail₀
  show StableHlo.after hostOps1 _ (Proc.devRef .tc main_v5) = _
  after_results
  have e := (Pipeline.withArrays_arr spec0 launch0.win.arr_inj c (V0 m c) (fun w => (dats m 0 c).arrAt w cfg0.N) 8).trans (final8 m c)
  funext q
  obtain ⟨b, g, rfl⟩ : ∃ (b : Fin 16) (g : Fin 1024), q = ix2 b g := ⟨q 0, q 1, eq_ix2 q⟩
  refine (tr_host _ _ b g).trans ?_
  exact congrFun e (ix2 g b)

/-- Result main_v6 is the host's transpose of window 9's array: the reference's result. -/
theorem tail_main_v6 (c : Dev nD) :
    Pipeline.afterTail₀ cfgs (dats m) 0 (V0 m) [hostOps1] c main_v6
      = (val_main_v121 (F := Ideal) (m ((c : Thread nD τ).loc main_arg0)) (m ((c : Thread nD τ).loc main_arg1)) : S16x1024.Idx → Ideal .f32) := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 9).trans (final9 m c)
  funext q
  obtain ⟨b, g, rfl⟩ : ∃ (b : Fin 16) (g : Fin 1024), q = ix2 b g := ⟨q 0, q 1, eq_ix2 q⟩
  refine (tr_host _ _ b g).trans ?_
  exact congrFun e (ix2 g b)

/-- The kernel's run, read: every result at the reference's stage of the two arguments, the arguments unchanged. -/
theorem run : θ_run defs (onTc (τ := τ) (main (F := Ideal))) ⟨m, fun _ => 0, ρ⟩ fun r => ∀ c : Dev nD,
      r.2.mem ((c : Thread nD τ).loc main_v3) = val_main_v124 (F := Ideal) (m ((c : Thread nD τ).loc main_arg0)) (m ((c : Thread nD τ).loc main_arg1))
      ∧ r.2.mem ((c : Thread nD τ).loc main_v4) = val_main_v125 (F := Ideal) (m ((c : Thread nD τ).loc main_arg0)) (m ((c : Thread nD τ).loc main_arg1))
      ∧ r.2.mem ((c : Thread nD τ).loc main_v2_2) = val_main_v119 (F := Ideal) (m ((c : Thread nD τ).loc main_arg0)) (m ((c : Thread nD τ).loc main_arg1))
      ∧ r.2.mem ((c : Thread nD τ).loc main_v2_3) = val_main_v116 (F := Ideal) (m ((c : Thread nD τ).loc main_arg0)) (m ((c : Thread nD τ).loc main_arg1))
      ∧ r.2.mem ((c : Thread nD τ).loc main_v5) = val_main_v123 (F := Ideal) (m ((c : Thread nD τ).loc main_arg0)) (m ((c : Thread nD τ).loc main_arg1))
      ∧ r.2.mem ((c : Thread nD τ).loc main_v6) = val_main_v121 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (by decide)).trans (tail_main_v3 m c),
      ((h c).2 main_v4 (by decide)).trans (tail_main_v4 m c),
      ((h c).1 6).trans (final6 m c),
      ((h c).1 7).trans (final7 m c),
      ((h c).2 main_v5 (by decide)).trans (tail_main_v5 m c),
      ((h c).2 main_v6 (by decide)).trans (tail_main_v6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.lean ====
/-
  The certificate of a softmax-bound kernel against its reference. For two arrays l, u of shape
  [16, 1024] both programs form, for every batch b and row i, the masked differences
  l_d(b,i,j) = (l(b,j) − u(b,i))·[i ≠ j] and u_d(b,i,j) = (u(b,j) − l(b,i))·[i ≠ j], their exponentials,
  the secant and tangent relaxations of exp over [l_d, u_d], the row sums S_l, S_u and the row sums of the
  relaxations' coefficients, then the relaxations of g(S) = 1/(1 + S) over [S_l, S_u], and return the
  clamped bounds of g, the two coefficient arrays of shape [16, 1024, 1024] and the two bias arrays.
  The kernel computes 32 rows per grid point from the whole arrays and from rows of their transposes,
  and returns the four row results transposed; the host transposes them back. At the ideal instance every
  operation of the kernel's block is the reference's operation of the same operands at the global row
  32t + r, so the results agree entry by entry; no law of arithmetic beyond the meaning of each operation
  is used, and the precondition is not needed. The ideal pass rewrote nothing, so the idealization is the
  program's own text.
-/
import proofs.«118019_j59949153518086_2_alg».proof.Defs
import proofs.«118019_j59949153518086_2_alg».proof.Proof.Gen.Kernel
import proofs.«118019_j59949153518086_2_alg».proof.Proof.Gen.KernelIdeal
import proofs.«118019_j59949153518086_2_alg».proof.Proof.Gen.ReferenceIdeal
import proofs.«118019_j59949153518086_2_alg».proof.Proof.Gen.Pre_finite_inputs
import proofs.«118019_j59949153518086_2_alg».proof.Proof.Gen.ReferenceIdeal.Run
import proofs.«118019_j59949153518086_2_alg».proof.Proof.Gen.ReferenceIdeal.Read
import proofs.«118019_j59949153518086_2_alg».proof.Proof.KernelFrame
import proofs.«118019_j59949153518086_2_alg».proof.Proof.KernelIdealFrame
import proofs.«118019_j59949153518086_2_alg».proof.Proof.Arrays
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference's run, its results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- Both runs end with each result at the reference's stage of the (agreeing) arguments. -/
theorem algebraic : Cert.algebraic_KernelIdeal_ReferenceIdeal := by
  intro m ρ m' ρ' _ hagree
  refine ⟨_, _, _, _, _, _, Cert.KernelIdeal.Hand.run m ρ, ?_⟩
  refine (θ_run Cert.ReferenceIdeal.defs _ _).mono (fun _ h c => ?_) (Cert.ReferenceIdeal.Value.run (F := Ideal) m' ρ')
  obtain ⟨h1, h2, h3, h4, h5, h6, h7, h8⟩ := h c
  have e0 := (hagree c).1
  have e1 := (hagree c).2
  refine ⟨h1.trans ((Cert.ReferenceIdeal.Read.val_main_v124_eq _ _).trans ?_),
    h2.trans ((Cert.ReferenceIdeal.Read.val_main_v125_eq _ _).trans ?_),
    h3.trans ((Cert.ReferenceIdeal.Read.val_main_v119_eq m' c).trans ?_),
    h4.trans ((Cert.ReferenceIdeal.Read.val_main_v116_eq m' c).trans ?_),
    h5.trans ((Cert.ReferenceIdeal.Read.val_main_v123_eq m' c).trans ?_),
    h6.trans ((Cert.ReferenceIdeal.Read.val_main_v121_eq m' c).trans ?_), h7, h8⟩ <;> rw [e0, e1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
